-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S128x64 .f32) (main_arg5 : FVec F S64x16 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  main_v28

def fn {F : FTy → Type} [FloatOps F] (main_arg0 : FVec F S131072x64 .f32) (main_arg1 : FVec F S1048576 .f32) (main_arg2 : FVec F S64x256 .f32) (main_arg3 : FVec F S256x128 .f32) (main_arg4 : FVec F S128x64 .f32) (main_arg5 : FVec F S64x16 .f32) (main_arg6 : IVec S1048576 32) (main_arg7 : IVec S1048576 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S1048576x64 : Shape := ⟨2, ![1048576, 64]⟩
abbrev S131072x128 : Shape := ⟨2, ![131072, 128]⟩
abbrev S2048x64 : Shape := ⟨2, ![2048, 64]⟩
abbrev S2048x1 : Shape := ⟨2, ![2048, 1]⟩
abbrev S2048x128 : Shape := ⟨2, ![2048, 128]⟩
abbrev S2048x256 : Shape := ⟨2, ![2048, 256]⟩
abbrev S1048576x128 : Shape := ⟨2, ![1048576, 128]⟩
abbrev S1024x16 : Shape := ⟨2, ![1024, 16]⟩
abbrev S4096x128 : Shape := ⟨2, ![4096, 128]⟩
abbrev S4096x1 : Shape := ⟨2, ![4096, 1]⟩
abbrev S32x16 : Shape := ⟨2, ![32, 16]⟩
abbrev S32x128x128 : Shape := ⟨3, ![32, 128, 128]⟩
abbrev S32x128 : Shape := ⟨2, ![32, 128]⟩
abbrev S32x64 : Shape := ⟨2, ![32, 64]⟩

abbrev nBuf : Space → Nat
  | .hbm => 72
  | .vmem => 18
  | .smem => 0
  | _ => 0

abbrev bufTy : (tb : Table) → Fin (tcTables nBuf tb) → BufTy
  | .hbm, ⟨0, _⟩ => ⟨S131072x64, .f32⟩
  | .hbm, ⟨1, _⟩ => ⟨S1048576, .f32⟩
  | .hbm, ⟨2, _⟩ => ⟨S64x256, .f32⟩
  | .hbm, ⟨3, _⟩ => ⟨S256x128, .f32⟩
  | .hbm, ⟨4, _⟩ => ⟨S128x64, .f32⟩
  | .hbm, ⟨5, _⟩ => ⟨S64x16, .f32⟩
  | .hbm, ⟨6, _⟩ => ⟨S1048576, .i32⟩
  | .hbm, ⟨7, _⟩ => ⟨S1048576, .i32⟩
  | .hbm, ⟨8, _⟩ => ⟨S_, .f32⟩
  | .hbm, ⟨9, _⟩ => ⟨S1048576, .f32⟩
  | .hbm, ⟨10, _⟩ => ⟨S_, .f32⟩
  | .hbm, ⟨11, _⟩ => ⟨S131072, .f32⟩
  | .hbm, ⟨12, _⟩ => ⟨S1048576x1, .i32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072x1, .f32⟩
  | .hbm, ⟨33, _⟩ => ⟨S131072x64, .f32⟩
  | .hbm, ⟨34, _⟩ => ⟨S131072x64, .f32⟩
  | .hbm, ⟨35, _⟩ => ⟨S_, .i32⟩
  | .hbm, ⟨36, _⟩ => ⟨S1048576, .i32⟩
  | .hbm, ⟨37, _⟩ => ⟨S1048576, .i1⟩
  | .hbm, ⟨38, _⟩ => ⟨S_, .i32⟩
  | .hbm, ⟨39, _⟩ => ⟨S1048576, .i32⟩
  | .hbm, ⟨40, _⟩ => ⟨S1048576, .i32⟩
  | .hbm, ⟨41, _⟩ => ⟨S1048576, .i32⟩
  | .hbm, ⟨42, _⟩ => ⟨S1048576x1, .i32⟩
  | .hbm, ⟨43, _⟩ => ⟨S1048576x64, .f32⟩
  | .hbm, ⟨44, _⟩ => ⟨S1048576x1, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S131072x64, .f32⟩
  | .hbm, ⟨49, _⟩ => ⟨S1048576x1, .i32⟩
  | .hbm, ⟨50, _⟩ => ⟨S131072x64, .f32⟩
  | .hbm, ⟨51, _⟩ => ⟨S131072x1, .f32⟩
  | .hbm, ⟨52, _⟩ => ⟨S131072x1, .f32⟩
  | .hbm, ⟨53, _⟩ => ⟨S131072x128, .f32⟩
  | .hbm, ⟨54, _⟩ => ⟨S_, .i32⟩
  | .hbm, ⟨55, _⟩ => ⟨S1048576, .i32⟩
  | .hbm, ⟨56, _⟩ => ⟨S1048576, .i1⟩
  | .hbm, ⟨57, _⟩ => ⟨S_, .i32⟩
  | .hbm, ⟨58, _⟩ => ⟨S1048576, .i32⟩
  | .hbm, ⟨59, _⟩ => ⟨S1048576, .i32⟩
  | .hbm, ⟨60, _⟩ => ⟨S1048576, .i32⟩
  | .hbm, ⟨61, _⟩ => ⟨S1048576x1, .i32⟩
  | .hbm, ⟨62, _⟩ => ⟨S1048576x128, .f32⟩
  | .hbm, ⟨63, _⟩ => ⟨S1048576x1, .f32⟩
  | .hbm, ⟨64, _⟩ => ⟨S1048576x128, .f32⟩
  | .hbm, ⟨65, _⟩ => ⟨S1048576x128, .f32⟩
  | .hbm, ⟨66, _⟩ => ⟨S_, .f32⟩
  | .hbm, ⟨67, _⟩ => ⟨S131072x128, .f32⟩
  | .hbm, ⟨68, _⟩ => ⟨S1048576x1, .i32⟩
  | .hbm, ⟨69, _⟩ => ⟨S131072x128, .f32⟩
  | .hbm, ⟨70, _⟩ => ⟨S131072x1, .f32⟩
  | .hbm, ⟨71, _⟩ => ⟨S1024x16, .f32⟩
  | .local _ .vmem, ⟨0, _⟩ => ⟨S2048x64, .f32⟩
  | .local _ .vmem, ⟨1, _⟩ => ⟨S2048x64, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S64x256, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S4096x128, .f32⟩
  | .local _ .vmem, ⟨11, _⟩ => ⟨S4096x128, .f32⟩
  | .local _ .vmem, ⟨12, _⟩ => ⟨S4096x1, .f32⟩
  | .local _ .vmem, ⟨13, _⟩ => ⟨S4096x1, .f32⟩
  | .local _ .vmem, ⟨14, _⟩ => ⟨S128x64, .f32⟩
  | .local _ .vmem, ⟨15, _⟩ => ⟨S64x16, .f32⟩
  | .local _ .vmem, ⟨16, _⟩ => ⟨S32x16, .f32⟩
  | .local _ .vmem, ⟨17, _⟩ => ⟨S32x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  bcast_S1048576x1_S1048576x64_0_1 : S1048576x1.BroadcastsInDim S1048576x64 (![0, 1] : Fin 2 → Fin S1048576x64.rank)
  bcast_S_S131072x64 : S_.BroadcastsInDim S131072x64 (![] : Fin 0 → Fin S131072x64.rank)
  shapeCasts_S131072_S131072x1 : S131072.ShapeCasts S131072x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  bcast_S1048576x1_S1048576x128_0_1 : S1048576x1.BroadcastsInDim S1048576x128 (![0, 1] : Fin 2 → Fin S1048576x128.rank)
  bcast_S_S131072x128 : S_.BroadcastsInDim S131072x128 (![] : Fin 0 → Fin S131072x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  shapeCasts_S4096x128_S32x128x128 : S4096x128.ShapeCasts S32x128x128
  reduces_S32x128x128_S32x128 : S32x128x128.Reduces [1] S32x128
  inb_S128x64_S128x64_0_0 : ∀ a, (![0, 0] : Fin 2 → Nat) a + S128x64.size a ≤ S128x64.size a
  h_S128x64 : 0 < S128x64.numel
  inb_S64x16_S64x16_0_0 : ∀ a, (![0, 0] : Fin 2 → Nat) a + S64x16.size a ≤ S64x16.size a
  h_S64x16 : 0 < S64x16.numel
  inb_S32x16_S32x16_0_0 : ∀ a, (![0, 0] : Fin 2 → Nat) a + S32x16.size a ≤ S32x16.size a
  h_S32x16 : 0 < S32x16.numel
  scatter_S131072_S1048576x1_S1048576_n_0_0_1_wf : ScatterDims.WF S131072 S1048576x1 S1048576 [] [0] [0] 1
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  dot_S32x128_S128x64_S32x64_1_0_0_1_n_n_wf : DotDims.WF S32x128 S128x64 S32x64 [1] [0] [0] [1] [] []
  dot_S32x64_S64x16_S32x16_1_0_0_1_n_n_wf : DotDims.WF S32x64 S64x16 S32x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .f32 = 32 ∨ (Rect.block (s := S131072x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S1024x16.size a
  hwx1_4 : ∀ i : grid1.Coords, EltTy.bits .f32 = 32 ∨ (Rect.block (s := S1024x16) S32x16.size (cc1_transform_4 i) (hinb1_4 i)).WholeWords (EltTy.packing .f32)

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x16_S32x16_1_0_0_1_n_n : DotDims S32x64 S64x16 S32x16 where
  lhsContracting := [1]
  rhsContracting := [0]
  lhsNonContracting := [0]
  rhsNonContracting := [1]
  lhsBatch := []
  rhsBatch := []
  wf := dot_S32x64_S64x16_S32x16_1_0_0_1_n_n_wf

abbrev win0_0 : Pipeline.Window sig grid0 :=
  Pipeline.Window.ofSpec (Memref.whole main_v28) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S32x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S131072x64 : Shape := ⟨2, ![131072, 64]⟩
abbrev S1048576 : Shape := ⟨1, ![1048576]⟩
abbrev S64x256 : Shape := ⟨2, ![64, 256]⟩
abbrev S256x128 : Shape := ⟨2, ![256, 128]⟩
abbrev S128x64 : Shape := ⟨2, ![128, 64]⟩
abbrev S64x16 : Shape := ⟨2, ![64, 16]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S1048576x64 : Shape := ⟨2, ![1048576, 64]⟩
abbrev S131072x256 : Shape := ⟨2, ![131072, 256]⟩
abbrev S131072x128 : Shape := ⟨2, ![131072, 128]⟩
abbrev S1048576x128 : Shape := ⟨2, ![1048576, 128]⟩
abbrev S1024x128 : Shape := ⟨2, ![1024, 128]⟩
abbrev S1024x64 : Shape := ⟨2, ![1024, 64]⟩
abbrev S1024x16 : Shape := ⟨2, ![1024, 16]⟩

abbrev nBuf : Space → Nat
  | .hbm => 144
  | .vmem => 0
  | .smem => 0
  | _ => 0

abbrev hbmTy0_0 (i : Nat) : BufTy := match i % 128 with
  | 0 => ⟨S131072x64, .f32⟩
  | 1 => ⟨S1048576, .f32⟩
  | 2 => ⟨S64x256, .f32⟩
  | 3 => ⟨S256x128, .f32⟩
  | 4 => ⟨S128x64, .f32⟩
  | 5 => ⟨S64x16, .f32⟩
  | 6 => ⟨S1048576, .i32⟩
  | 7 => ⟨S1048576, .i32⟩
  | 8 => ⟨S_, .f32⟩
  | 9 => ⟨S1048576, .f32⟩
  | 10 => ⟨S_, .f32⟩
  | 11 => ⟨S131072, .f32⟩
  | 12 => ⟨S1048576x1, .i32⟩
  | 13 => ⟨S131072, .f32⟩
  | 14 => ⟨S_, .f32⟩
  | 15 => ⟨S_, .f32⟩
  | 16 => ⟨S131072, .f32⟩
  | 17 => ⟨S131072, .f32⟩
  | 18 => ⟨S_, .f32⟩
  | 19 => ⟨S131072, .f32⟩
  | 20 => ⟨S1048576x1, .i32⟩
  | 21 => ⟨S131072, .f32⟩
  | 22 => ⟨S_, .f32⟩
  | 23 => ⟨S_, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072x1, .f32⟩
  | 30 => ⟨S131072x64, .f32⟩
  | 31 => ⟨S131072x64, .f32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x64, .f32⟩
  | 41 => ⟨S1048576x1, .f32⟩
  | 42 => ⟨S1048576x64, .f32⟩
  | 43 => ⟨S1048576x64, .f32⟩
  | 44 => ⟨S_, .f32⟩
  | 45 => ⟨S131072x64, .f32⟩
  | 46 => ⟨S1048576x1, .i32⟩
  | 47 => ⟨S131072x64, .f32⟩
  | 48 => ⟨S_, .f32⟩
  | 49 => ⟨S131072, .f32⟩
  | 50 => ⟨S131072, .f32⟩
  | 51 => ⟨S131072x1, .f32⟩
  | 52 => ⟨S131072x64, .f32⟩
  | 53 => ⟨S131072x64, .f32⟩
  | 54 => ⟨S131072x256, .f32⟩
  | 55 => ⟨S_, .f32⟩
  | 56 => ⟨S131072x256, .f32⟩
  | 57 => ⟨S131072x256, .i1⟩
  | 58 => ⟨S_, .f32⟩
  | 59 => ⟨S131072x256, .f32⟩
  | 60 => ⟨S131072x256, .f32⟩
  | 61 => ⟨S131072x256, .f32⟩
  | 62 => ⟨S_, .f32⟩
  | 63 => ⟨S1048576, .f32⟩
  | 64 => ⟨S_, .f32⟩
  | 65 => ⟨S131072, .f32⟩
  | 66 => ⟨S1048576x1, .i32⟩
  | 67 => ⟨S131072, .f32⟩
  | 68 => ⟨S_, .f32⟩
  | 69 => ⟨S_, .f32⟩
  | 70 => ⟨S131072, .f32⟩
  | 71 => ⟨S131072, .f32⟩
  | 72 => ⟨S_, .f32⟩
  | 73 => ⟨S131072, .f32⟩
  | 74 => ⟨S1048576x1, .i32⟩
  | 75 => ⟨S131072, .f32⟩
  | 76 => ⟨S_, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072x256, .f32⟩
  | 85 => ⟨S131072x256, .f32⟩
  | 86 => ⟨S131072x128, .f32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S1048576x1, .i32⟩
  | 95 => ⟨S1048576x128, .f32⟩
  | 96 => ⟨S1048576x1, .f32⟩
  | 97 => ⟨S1048576x128, .f32⟩
  | 98 => ⟨S1048576x128, .f32⟩
  | 99 => ⟨S_, .f32⟩
  | 100 => ⟨S131072x128, .f32⟩
  | 101 => ⟨S1048576x1, .i32⟩
  | 102 => ⟨S131072x128, .f32⟩
  | 103 => ⟨S_, .f32⟩
  | 104 => ⟨S131072, .f32⟩
  | 105 => ⟨S131072, .f32⟩
  | 106 => ⟨S131072x1, .f32⟩
  | 107 => ⟨S131072x128, .f32⟩
  | 108 => ⟨S131072x128, .f32⟩
  | 109 => ⟨S_, .f32⟩
  | 110 => ⟨S131072x128, .f32⟩
  | 111 => ⟨S131072x128, .i1⟩
  | 112 => ⟨S_, .f32⟩
  | 113 => ⟨S131072x128, .f32⟩
  | 114 => ⟨S131072x128, .f32⟩
  | 115 => ⟨S131072x128, .f32⟩
  | 116 => ⟨S131072, .i32⟩
  | 117 => ⟨S_, .i32⟩
  | 118 => ⟨S_, .i32⟩
  | 119 => ⟨S131072, .i32⟩
  | 120 => ⟨S131072, .i32⟩
  | 121 => ⟨S131072, .i32⟩
  | 122 => ⟨S_, .i32⟩
  | 123 => ⟨S131072, .i32⟩
  | 124 => ⟨S131072, .i1⟩
  | 125 => ⟨S131072, .i32⟩
  | 126 => ⟨S131072, .i32⟩
  | 127 => ⟨S_, .i32⟩
  | _ => ⟨S131072x64, .f32⟩

abbrev hbmTy0_1 (i : Nat) : BufTy := match i % 128 with
  | 0 => ⟨S131072, .i32⟩
  | 1 => ⟨S131072, .i1⟩
  | 2 => ⟨S131072, .i1⟩
  | 3 => ⟨S_, .i32⟩
  | 4 => ⟨S131072, .i32⟩
  | 5 => ⟨S131072, .i32⟩
  | 6 => ⟨S131072, .i32⟩
  | 7 => ⟨S_, .f32⟩
  | 8 => ⟨S1024x128, .f32⟩
  | 9 => ⟨S131072x1, .i32⟩
  | 10 => ⟨S1024x128, .f32⟩
  | 11 => ⟨S_, .f32⟩
  | 12 => ⟨S1024x128, .f32⟩
  | 13 => ⟨S1024x128, .f32⟩
  | 14 => ⟨S1024x64, .f32⟩
  | 15 => ⟨S1024x16, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_call4_v0 : Ref sig .tc := ⟨.hbm, 77, rfl⟩
abbrev main_call4_v1 : Ref sig .tc := ⟨.hbm, 78, rfl⟩
abbrev main_v46 : Ref sig .tc := ⟨.hbm, 79, rfl⟩
abbrev main_cst_15 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_16 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_19 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_20 : Ref sig .tc := ⟨.hbm, 109, rfl⟩
abbrev main_v71 : Ref sig .tc := ⟨.hbm, 110, rfl⟩
abbrev main_v72 : Ref sig .tc := ⟨.hbm, 111, rfl⟩
abbrev main_cst_21 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_22 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_c : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_0 : Ref sig .tc := ⟨.hbm, 131, rfl⟩
abbrev main_call6_v12 : Ref sig .tc := ⟨.hbm, 132, rfl⟩
abbrev main_call6_v13 : Ref sig .tc := ⟨.hbm, 133, rfl⟩
abbrev main_v77 : Ref sig .tc := ⟨.hbm, 134, rfl⟩
abbrev main_cst_23 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_24 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  bcast_S1048576x1_S1048576x64_0_1 : S1048576x1.BroadcastsInDim S1048576x64 (![0, 1] : Fin 2 → Fin S1048576x64.rank)
  bcast_S_S131072x64 : S_.BroadcastsInDim S131072x64 (![] : Fin 0 → Fin S131072x64.rank)
  bcast_S_S131072x256 : S_.BroadcastsInDim S131072x256 (![] : Fin 0 → Fin S131072x256.rank)
  bcast_S131072x1_S131072x256_0_1 : S131072x1.BroadcastsInDim S131072x256 (![0, 1] : Fin 2 → Fin S131072x256.rank)
  bcast_S1048576x1_S1048576x128_0_1 : S1048576x1.BroadcastsInDim S1048576x128 (![0, 1] : Fin 2 → Fin S1048576x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S_S1024x128 : S_.BroadcastsInDim S1024x128 (![] : Fin 0 → Fin S1024x128.rank)
  scatter_S131072_S1048576x1_S1048576_n_0_0_1_wf : ScatterDims.WF S131072 S1048576x1 S1048576 [] [0] [0] 1
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S131072x64_S64x256_S131072x256_1_0_0_1_n_n_wf : DotDims.WF S131072x64 S64x256 S131072x256 [1] [0] [0] [1] [] []
  dot_S131072x256_S256x128_S131072x128_1_0_0_1_n_n_wf : DotDims.WF S131072x256 S256x128 S131072x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  scatter_S1024x128_S131072x1_S131072x128_1_0_0_1_wf : ScatterDims.WF S1024x128 S131072x1 S131072x128 [1] [0] [0] 1
  dot_S1024x128_S128x64_S1024x64_1_0_0_1_n_n_wf : DotDims.WF S1024x128 S128x64 S1024x64 [1] [0] [0] [1] [] []
  dot_S1024x64_S64x16_S1024x16_1_0_0_1_n_n_wf : DotDims.WF S1024x64 S64x16 S1024x16 [1] [0] [0] [1] [] []

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def scatter_S1024x128_S131072x1_S131072x128_1_0_0_1 : ScatterDims S1024x128 S131072x1 S131072x128 where
  updateWindowDims := [1]
  insertedWindowDims := [0]
  scatterDimsToOperandDims := [0]
  indexVectorDim := 1
  wf := scatter_S1024x128_S131072x1_S131072x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

class Facts : Prop extends Facts₀ where

variable [Facts]
-- ==== Proof.RunOut.lean ====
/-
  The kernel program's run with its result named.

  The program is five stretches of host operations, the first dense kernel over 64 row blocks, one more stretch of host
  operations (the second layer's gather, weighting and scatter-add) and the pooling kernel over 32 blocks of graphs. The
  buffer contents at each boundary are a fold from the launch memory: a host stretch applies its operations' results, a kernel
  region leaves each of its arrays at what its write-backs produce and every other buffer as it found it. Every weakly fair
  execution terminates in a state whose unscoped buffers hold the last boundary's contents; read at the result buffer this
  names the program's result, and read at the argument buffers it gives back the launch contents.
-/
import proofs.«179570_j8117488190078_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; its result buffer ends at the last
    boundary's contents and its argument buffers as launched. -/
theorem run_out : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.RefRun.lean ====
/-
  The reference program's run, read back.

  The reference's entry function is a straight line of host operations: the degree counts (a scatter-add of ones over the edge
  endpoints), their clamp at one and power `-1/2`, the first layer (scale the node features by the out-degree factor, gather
  along the edges' sources, weight, scatter-add into the destinations, scale by the in-degree factor, multiply by the first
  weight matrix, rectify), the second layer (scale, multiply by the second weight matrix, gather, weight, scatter-add, scale,
  rectify), the mean over each graph's 128 nodes (a scatter-add along node index divided by 128, then a division by 128) and the
  two linear maps of the head. The functions it calls (the clamp, the selections, the integer floor division) are written out
  at their calls. Listed as operations, the line's effect on the buffers is the fold of the operations' results over the launch
  contents, and every weakly fair execution ends in exactly that state.
-/
import proofs.«179570_j8117488190078_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: degrees, the first layer up to its rectifier. -/
abbrev ops0 : List (HloOp τ sig (Elt F)) :=
  [ nullary main_cst (constant S_ .f32 0x3F800000#32),
    unary main_cst main_v0 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v1 (broadcastInDim S131072 ![] bcast_S_S131072 : (⟨S_, .f32⟩ : BufTy).Contents (Elt F) → (⟨S131072, .f32⟩ : BufTy).Contents (Elt F)),
    unary main_arg6 main_v2 (broadcastInDim S1048576x1 ![0] bcast_S1048576_S1048576x1_0 : (⟨S1048576, .i32⟩ : BufTy).Contents (Elt F) → (⟨S1048576x1, .i32⟩ : BufTy).Contents (Elt F)),
    ternary main_v1 main_v2 main_v0 main_v3 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_1 (constant S_ .f32 0x3F800000#32),
    TRef.unary (.of main_cst_1) main_call0.v0 id,
    TRef.unary main_call0.v0 main_call0.v1 (broadcastInDim S131072 ![] bcast_S_S131072),
    TRef.binary main_call0.v1 (.of main_v3) main_call0.v2 maximumf,
    nullary main_cst_2 (constant S_ .f32 0x00000000#32),
    unary main_cst_2 main_v5 (broadcastInDim S131072 ![] bcast_S_S131072 : (⟨S_, .f32⟩ : BufTy).Contents (Elt F) → (⟨S131072, .f32⟩ : BufTy).Contents (Elt F)),
    unary main_arg7 main_v6 (broadcastInDim S1048576x1 ![0] bcast_S1048576_S1048576x1_0 : (⟨S1048576, .i32⟩ : BufTy).Contents (Elt F) → (⟨S1048576x1, .i32⟩ : BufTy).Contents (Elt F)),
    ternary main_v5 main_v6 main_v0 main_v7 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_3 (constant S_ .f32 0x3F800000#32),
    TRef.unary (.of main_cst_3) main_call1.v0 id,
    TRef.unary main_call1.v0 main_call1.v1 (broadcastInDim S131072 ![] bcast_S_S131072),
    TRef.binary main_call1.v1 (.of main_v7) main_call1.v2 maximumf,
    nullary main_cst_4 (constant S_ .f32 0xBF000000#32),
    unary main_cst_4 main_v9 (broadcastInDim S131072 ![] bcast_S_S131072 : (⟨S_, .f32⟩ : BufTy).Contents (Elt F) → (⟨S131072, .f32⟩ : BufTy).Contents (Elt F)),
    binary main_v4 main_v9 main_v10 (Host.powf : (⟨S131072, .f32⟩ : BufTy).Contents (Elt F) → (⟨S131072, .f32⟩ : BufTy).Contents (Elt F) → (⟨S131072, .f32⟩ : BufTy).Contents (Elt F)),
    unary main_v10 main_v11 (broadcastInDim S131072x1 ![0] bcast_S131072_S131072x1_0 : (⟨S131072, .f32⟩ : BufTy).Contents (Elt F) → (⟨S131072x1, .f32⟩ : BufTy).Contents (Elt F)),
    unary main_v11 main_v12 (broadcastInDim S131072x64 ![0, 1] bcast_S131072x1_S131072x64_0_1 : (⟨S131072x1, .f32⟩ : BufTy).Contents (Elt F) → (⟨S131072x64, .f32⟩ : BufTy).Contents (Elt F)),
    binary main_arg0 main_v12 main_v13 (mulf : (⟨S131072x64, .f32⟩ : BufTy).Contents (Elt F) → (⟨S131072x64, .f32⟩ : BufTy).Contents (Elt F) → (⟨S131072x64, .f32⟩ : BufTy).Contents (Elt F)),
    nullary main_c (constantI S_ 32 0#32),
    unary main_c main_v14 (broadcastInDim S1048576 ![] bcast_S_S1048576 : (⟨S_, .i32⟩ : BufTy).Contents (Elt F) → (⟨S1048576, .i32⟩ : BufTy).Contents (Elt F)),
    binary main_arg6 main_v14 main_v15 (cmpi .slt : (⟨S1048576, .i32⟩ : BufTy).Contents (Elt F) → (⟨S1048576, .i32⟩ : BufTy).Contents (Elt F) → (⟨S1048576, .i1⟩ : BufTy).Contents (Elt F)),
    nullary main_c_5 (constantI S_ 32 131072#32),
    unary main_c_5 main_v16 (broadcastInDim S1048576 ![] bcast_S_S1048576 : (⟨S_, .i32⟩ : BufTy).Contents (Elt F) → (⟨S1048576, .i32⟩ : BufTy).Contents (Elt F)),
    binary main_arg6 main_v16 main_v17 (addi : (⟨S1048576, .i32⟩ : BufTy).Contents (Elt F) → (⟨S1048576, .i32⟩ : BufTy).Contents (Elt F) → (⟨S1048576, .i32⟩ : BufTy).Contents (Elt F)),
    ternary main_v15 main_v17 main_arg6 main_v18 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v18 main_v19 (broadcastInDim S1048576x1 ![0] bcast_S1048576_S1048576x1_0 : (⟨S1048576, .i32⟩ : BufTy).Contents (Elt F) → (⟨S1048576x1, .i32⟩ : BufTy).Contents (Elt F)),
    binary main_v13 main_v19 main_v20 ((fun x i => Host.gather gather_S131072x64_S1048576x1_S1048576x64_1_0_n_n_0_1_164 x i) : (⟨S131072x64, .f32⟩ : BufTy).Contents (Elt F) → (⟨S1048576x1, .i32⟩ : BufTy).Contents (Elt F) → (⟨S1048576x64, .f32⟩ : BufTy).Contents (Elt F)),
    unary main_arg1 main_v21 (broadcastInDim S1048576x1 ![0] bcast_S1048576_S1048576x1_0 : (⟨S1048576, .f32⟩ : BufTy).Contents (Elt F) → (⟨S1048576x1, .f32⟩ : BufTy).Contents (Elt F)),
    unary main_v21 main_v22 (broadcastInDim S1048576x64 ![0, 1] bcast_S1048576x1_S1048576x64_0_1 : (⟨S1048576x1, .f32⟩ : BufTy).Contents (Elt F) → (⟨S1048576x64, .f32⟩ : BufTy).Contents (Elt F)),
    binary main_v20 main_v22 main_v23 (mulf : (⟨S1048576x64, .f32⟩ : BufTy).Contents (Elt F) → (⟨S1048576x64, .f32⟩ : BufTy).Contents (Elt F) → (⟨S1048576x64, .f32⟩ : BufTy).Contents (Elt F)),
    nullary main_cst_6 (constant S_ .f32 0x00000000#32),
    unary main_cst_6 main_v24 (broadcastInDim S131072x64 ![] bcast_S_S131072x64 : (⟨S_, .f32⟩ : BufTy).Contents (Elt F) → (⟨S131072x64, .f32⟩ : BufTy).Contents (Elt F)),
    unary main_arg7 main_v25 (broadcastInDim S1048576x1 ![0] bcast_S1048576_S1048576x1_0 : (⟨S1048576, .i32⟩ : BufTy).Contents (Elt F) → (⟨S1048576x1, .i32⟩ : BufTy).Contents (Elt F)),
    ternary main_v24 main_v25 main_v23 main_v26 ((fun x i u => Host.scatterAdd scatter_S131072x64_S1048576x1_S1048576x64_1_0_0_1 x i u) : (⟨S131072x64, .f32⟩ : BufTy).Contents (Elt F) → (⟨S1048576x1, .i32⟩ : BufTy).Contents (Elt F) → (⟨S1048576x64, .f32⟩ : BufTy).Contents (Elt F) → (⟨S131072x64, .f32⟩ : BufTy).Contents (Elt F)),
    nullary main_cst_7 (constant S_ .f32 0xBF000000#32),
    unary main_cst_7 main_v27 (broadcastInDim S131072 ![] bcast_S_S131072 : (⟨S_, .f32⟩ : BufTy).Contents (Elt F) → (⟨S131072, .f32⟩ : BufTy).Contents (Elt F)),
    binary main_v8 main_v27 main_v28 (Host.powf : (⟨S131072, .f32⟩ : BufTy).Contents (Elt F) → (⟨S131072, .f32⟩ : BufTy).Contents (Elt F) → (⟨S131072, .f32⟩ : BufTy).Contents (Elt F)),
    unary main_v28 main_v29 (broadcastInDim S131072x1 ![0] bcast_S131072_S131072x1_0 : (⟨S131072, .f32⟩ : BufTy).Contents (Elt F) → (⟨S131072x1, .f32⟩ : BufTy).Contents (Elt F)),
    unary main_v29 main_v30 (broadcastInDim S131072x64 ![0, 1] bcast_S131072x1_S131072x64_0_1 : (⟨S131072x1, .f32⟩ : BufTy).Contents (Elt F) → (⟨S131072x64, .f32⟩ : BufTy).Contents (Elt F)),
    binary main_v26 main_v30 main_v31 (mulf : (⟨S131072x64, .f32⟩ : BufTy).Contents (Elt F) → (⟨S131072x64, .f32⟩ : BufTy).Contents (Elt F) → (⟨S131072x64, .f32⟩ : BufTy).Contents (Elt F)),
    binary main_v31 main_arg2 main_v32 ((fun l r => Host.dotGeneral dot_S131072x64_S64x256_S131072x256_1_0_0_1_n_n none l r) : (⟨S131072x64, .f32⟩ : BufTy).Contents (Elt F) → (⟨S64x256, .f32⟩ : BufTy).Contents (Elt F) → (⟨S131072x256, .f32⟩ : BufTy).Contents (Elt F)),
    nullary main_cst_8 (constant S_ .f32 0x00000000#32),
    unary main_cst_8 main_v33 (broadcastInDim S131072x256 ![] bcast_S_S131072x256 : (⟨S_, .f32⟩ : BufTy).Contents (Elt F) → (⟨S131072x256, .f32⟩ : BufTy).Contents (Elt F)),
    binary main_v32 main_v33 main_v34 (cmpf .oge : (⟨S131072x256, .f32⟩ : BufTy).Contents (Elt F) → (⟨S131072x256, .f32⟩ : BufTy).Contents (Elt F) → (⟨S131072x256, .i1⟩ : BufTy).Contents (Elt F)),
    nullary main_cst_9 (constant S_ .f32 0x3C23D70A#32),
    unary main_cst_9 main_v35 (broadcastInDim S131072x256 ![] bcast_S_S131072x256 : (⟨S_, .f32⟩ : BufTy).Contents (Elt F) → (⟨S131072x256, .f32⟩ : BufTy).Contents (Elt F)),
    binary main_v35 main_v32 main_v36 (mulf : (⟨S131072x256, .f32⟩ : BufTy).Contents (Elt F) → (⟨S131072x256, .f32⟩ : BufTy).Contents (Elt F) → (⟨S131072x256, .f32⟩ : BufTy).Contents (Elt F)),
    TRef.ternary (.of main_v34) (.of main_v32) (.of main_v36) main_call2.v0 select,
    nullary main_cst_10 (constant S_ .f32 0x3F800000#32),
    unary main_cst_10 main_v38 (broadcastInDim S1048576 ![] bcast_S_S1048576 : (⟨S_, .f32⟩ : BufTy).Contents (Elt F) → (⟨S1048576, .f32⟩ : BufTy).Contents (Elt F)),
    nullary main_cst_11 (constant S_ .f32 0x00000000#32),
    unary main_cst_11 main_v39 (broadcastInDim S131072 ![] bcast_S_S131072 : (⟨S_, .f32⟩ : BufTy).Contents (Elt F) → (⟨S131072, .f32⟩ : BufTy).Contents (Elt F)),
    unary main_arg6 main_v40 (broadcastInDim S1048576x1 ![0] bcast_S1048576_S1048576x1_0 : (⟨S1048576, .i32⟩ : BufTy).Contents (Elt F) → (⟨S1048576x1, .i32⟩ : BufTy).Contents (Elt F)),
    ternary main_v39 main_v40 main_v38 main_v41 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_12 (constant S_ .f32 0x3F800000#32),
    TRef.unary (.of main_cst_12) main_call3.v0 id,
    TRef.unary main_call3.v0 main_call3.v1 (broadcastInDim S131072 ![] bcast_S_S131072),
    TRef.binary main_call3.v1 (.of main_v41) main_call3.v2 maximumf,
    nullary main_cst_13 (constant S_ .f32 0x00000000#32),
    unary main_cst_13 main_v43 (broadcastInDim S131072 ![] bcast_S_S131072 : (⟨S_, .f32⟩ : BufTy).Contents (Elt F) → (⟨S131072, .f32⟩ : BufTy).Contents (Elt F)) ]

/-- The second stretch: the second layer, the pooling and the head. -/
abbrev ops1 : List (HloOp τ sig (Elt F)) :=
  [ unary main_arg7 main_v44 (broadcastInDim S1048576x1 ![0] bcast_S1048576_S1048576x1_0 : (⟨S1048576, .i32⟩ : BufTy).Contents (Elt F) → (⟨S1048576x1, .i32⟩ : BufTy).Contents (Elt F)),
    ternary main_v43 main_v44 main_v38 main_v45 ((fun x i u => Host.scatterAdd scatter_S131072_S1048576x1_S1048576_n_0_0_1 x i u) : (⟨S131072, .f32⟩ : BufTy).Contents (Elt F) → (⟨S1048576x1, .i32⟩ : BufTy).Contents (Elt F) → (⟨S1048576, .f32⟩ : BufTy).Contents (Elt F) → (⟨S131072, .f32⟩ : BufTy).Contents (Elt F)),
    nullary main_cst_14 (constant S_ .f32 0x3F800000#32),
    TRef.unary (.of main_cst_14) main_call4.v0 id,
    TRef.unary main_call4.v0 main_call4.v1 (broadcastInDim S131072 ![] bcast_S_S131072),
    TRef.binary main_call4.v1 (.of main_v45) main_call4.v2 maximumf,
    nullary main_cst_15 (constant S_ .f32 0xBF000000#32),
    unary main_cst_15 main_v47 (broadcastInDim S131072 ![] bcast_S_S131072 : (⟨S_, .f32⟩ : BufTy).Contents (Elt F) → (⟨S131072, .f32⟩ : BufTy).Contents (Elt F)),
    binary main_v42 main_v47 main_v48 (Host.powf : (⟨S131072, .f32⟩ : BufTy).Contents (Elt F) → (⟨S131072, .f32⟩ : BufTy).Contents (Elt F) → (⟨S131072, .f32⟩ : BufTy).Contents (Elt F)),
    unary main_v48 main_v49 (broadcastInDim S131072x1 ![0] bcast_S131072_S131072x1_0 : (⟨S131072, .f32⟩ : BufTy).Contents (Elt F) → (⟨S131072x1, .f32⟩ : BufTy).Contents (Elt F)),
    unary main_v49 main_v50 (broadcastInDim S131072x256 ![0, 1] bcast_S131072x1_S131072x256_0_1 : (⟨S131072x1, .f32⟩ : BufTy).Contents (Elt F) → (⟨S131072x256, .f32⟩ : BufTy).Contents (Elt F)),
    binary main_v37 main_v50 main_v51 (mulf : (⟨S131072x256, .f32⟩ : BufTy).Contents (Elt F) → (⟨S131072x256, .f32⟩ : BufTy).Contents (Elt F) → (⟨S131072x256, .f32⟩ : BufTy).Contents (Elt F)),
    binary main_v51 main_arg3 main_v52 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    nullary main_c_16 (constantI S_ 32 0#32),
    unary main_c_16 main_v53 (broadcastInDim S1048576 ![] bcast_S_S1048576 : (⟨S_, .i32⟩ : BufTy).Contents (Elt F) → (⟨S1048576, .i32⟩ : BufTy).Contents (Elt F)),
    binary main_arg6 main_v53 main_v54 (cmpi .slt : (⟨S1048576, .i32⟩ : BufTy).Contents (Elt F) → (⟨S1048576, .i32⟩ : BufTy).Contents (Elt F) → (⟨S1048576, .i1⟩ : BufTy).Contents (Elt F)),
    nullary main_c_17 (constantI S_ 32 131072#32),
    unary main_c_17 main_v55 (broadcastInDim S1048576 ![] bcast_S_S1048576 : (⟨S_, .i32⟩ : BufTy).Contents (Elt F) → (⟨S1048576, .i32⟩ : BufTy).Contents (Elt F)),
    binary main_arg6 main_v55 main_v56 (addi : (⟨S1048576, .i32⟩ : BufTy).Contents (Elt F) → (⟨S1048576, .i32⟩ : BufTy).Contents (Elt F) → (⟨S1048576, .i32⟩ : BufTy).Contents (Elt F)),
    ternary main_v54 main_v56 main_arg6 main_v57 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v57 main_v58 (broadcastInDim S1048576x1 ![0] bcast_S1048576_S1048576x1_0 : (⟨S1048576, .i32⟩ : BufTy).Contents (Elt F) → (⟨S1048576x1, .i32⟩ : BufTy).Contents (Elt F)),
    binary main_v52 main_v58 main_v59 ((fun x i => Host.gather gather_S131072x128_S1048576x1_S1048576x128_1_0_n_n_0_1_1128 x i) : (⟨S131072x128, .f32⟩ : BufTy).Contents (Elt F) → (⟨S1048576x1, .i32⟩ : BufTy).Contents (Elt F) → (⟨S1048576x128, .f32⟩ : BufTy).Contents (Elt F)),
    unary main_arg1 main_v60 (broadcastInDim S1048576x1 ![0] bcast_S1048576_S1048576x1_0 : (⟨S1048576, .f32⟩ : BufTy).Contents (Elt F) → (⟨S1048576x1, .f32⟩ : BufTy).Contents (Elt F)),
    unary main_v60 main_v61 (broadcastInDim S1048576x128 ![0, 1] bcast_S1048576x1_S1048576x128_0_1 : (⟨S1048576x1, .f32⟩ : BufTy).Contents (Elt F) → (⟨S1048576x128, .f32⟩ : BufTy).Contents (Elt F)),
    binary main_v59 main_v61 main_v62 (mulf : (⟨S1048576x128, .f32⟩ : BufTy).Contents (Elt F) → (⟨S1048576x128, .f32⟩ : BufTy).Contents (Elt F) → (⟨S1048576x128, .f32⟩ : BufTy).Contents (Elt F)),
    nullary main_cst_18 (constant S_ .f32 0x00000000#32),
    unary main_cst_18 main_v63 (broadcastInDim S131072x128 ![] bcast_S_S131072x128 : (⟨S_, .f32⟩ : BufTy).Contents (Elt F) → (⟨S131072x128, .f32⟩ : BufTy).Contents (Elt F)),
    unary main_arg7 main_v64 (broadcastInDim S1048576x1 ![0] bcast_S1048576_S1048576x1_0 : (⟨S1048576, .i32⟩ : BufTy).Contents (Elt F) → (⟨S1048576x1, .i32⟩ : BufTy).Contents (Elt F)),
    ternary main_v63 main_v64 main_v62 main_v65 ((fun x i u => Host.scatterAdd scatter_S131072x128_S1048576x1_S1048576x128_1_0_0_1 x i u) : (⟨S131072x128, .f32⟩ : BufTy).Contents (Elt F) → (⟨S1048576x1, .i32⟩ : BufTy).Contents (Elt F) → (⟨S1048576x128, .f32⟩ : BufTy).Contents (Elt F) → (⟨S131072x128, .f32⟩ : BufTy).Contents (Elt F)),
    nullary main_cst_19 (constant S_ .f32 0xBF000000#32),
    unary main_cst_19 main_v66 (broadcastInDim S131072 ![] bcast_S_S131072 : (⟨S_, .f32⟩ : BufTy).Contents (Elt F) → (⟨S131072, .f32⟩ : BufTy).Contents (Elt F)),
    binary main_v46 main_v66 main_v67 (Host.powf : (⟨S131072, .f32⟩ : BufTy).Contents (Elt F) → (⟨S131072, .f32⟩ : BufTy).Contents (Elt F) → (⟨S131072, .f32⟩ : BufTy).Contents (Elt F)),
    unary main_v67 main_v68 (broadcastInDim S131072x1 ![0] bcast_S131072_S131072x1_0 : (⟨S131072, .f32⟩ : BufTy).Contents (Elt F) → (⟨S131072x1, .f32⟩ : BufTy).Contents (Elt F)),
    unary main_v68 main_v69 (broadcastInDim S131072x128 ![0, 1] bcast_S131072x1_S131072x128_0_1 : (⟨S131072x1, .f32⟩ : BufTy).Contents (Elt F) → (⟨S131072x128, .f32⟩ : BufTy).Contents (Elt F)),
    binary main_v65 main_v69 main_v70 (mulf : (⟨S131072x128, .f32⟩ : BufTy).Contents (Elt F) → (⟨S131072x128, .f32⟩ : BufTy).Contents (Elt F) → (⟨S131072x128, .f32⟩ : BufTy).Contents (Elt F)),
    nullary main_cst_20 (constant S_ .f32 0x00000000#32),
    unary main_cst_20 main_v71 (broadcastInDim S131072x128 ![] bcast_S_S131072x128 : (⟨S_, .f32⟩ : BufTy).Contents (Elt F) → (⟨S131072x128, .f32⟩ : BufTy).Contents (Elt F)),
    binary main_v70 main_v71 main_v72 (cmpf .oge : (⟨S131072x128, .f32⟩ : BufTy).Contents (Elt F) → (⟨S131072x128, .f32⟩ : BufTy).Contents (Elt F) → (⟨S131072x128, .i1⟩ : BufTy).Contents (Elt F)),
    nullary main_cst_21 (constant S_ .f32 0x3C23D70A#32),
    unary main_cst_21 main_v73 (broadcastInDim S131072x128 ![] bcast_S_S131072x128 : (⟨S_, .f32⟩ : BufTy).Contents (Elt F) → (⟨S131072x128, .f32⟩ : BufTy).Contents (Elt F)),
    binary main_v73 main_v70 main_v74 (mulf : (⟨S131072x128, .f32⟩ : BufTy).Contents (Elt F) → (⟨S131072x128, .f32⟩ : BufTy).Contents (Elt F) → (⟨S131072x128, .f32⟩ : BufTy).Contents (Elt F)),
    TRef.ternary (.of main_v72) (.of main_v70) (.of main_v74) main_call5.v0 select,
    nullary main_v76 (iotaInDim S131072 32 0),
    nullary main_c_22 (constantI S_ 32 128#32),
    TRef.unary (.of main_c_22) main_call6.v0 id,
    TRef.unary main_call6.v0 main_call6.v1 (broadcastInDim S131072 ![] bcast_S_S131072),
    TRef.binary (.of main_v76) main_call6.v1 main_call6.v2 Host.divsi,
    TRef.unary (.of main_v76) main_call6.v3 signi,
    TRef.unary main_call6.v0 main_call6.v4 signi,
    TRef.unary main_call6.v4 main_call6.v5 (broadcastInDim S131072 ![] bcast_S_S131072),
    TRef.binary main_call6.v3 main_call6.v5 main_call6.v6 (cmpi .ne),
    TRef.unary main_call6.v0 main_call6.v7 (broadcastInDim S131072 ![] bcast_S_S131072),
    TRef.binary (.of main_v76) main_call6.v7 main_call6.v8 Host.remsi,
    TRef.nullary main_call6.c (constantI S_ 32 0#32),
    TRef.unary main_call6.c main_call6.v9 (broadcastInDim S131072 ![] bcast_S_S131072),
    TRef.binary main_call6.v8 main_call6.v9 main_call6.v10 (cmpi .ne),
    TRef.binary main_call6.v6 main_call6.v10 main_call6.v11 andi,
    TRef.nullary main_call6.c_0 (constantI S_ 32 1#32),
    TRef.unary main_call6.c_0 main_call6.v12 (broadcastInDim S131072 ![] bcast_S_S131072),
    TRef.binary main_call6.v2 main_call6.v12 main_call6.v13 subi,
    TRef.ternary main_call6.v11 main_call6.v13 main_call6.v2 main_call6.call0.v0 select,
    nullary main_cst_23 (constant S_ .f32 0x00000000#32),
    unary main_cst_23 main_v78 (broadcastInDim S1024x128 ![] bcast_S_S1024x128 : (⟨S_, .f32⟩ : BufTy).Contents (Elt F) → (⟨S1024x128, .f32⟩ : BufTy).Contents (Elt F)),
    unary main_v77 main_v79 (broadcastInDim S131072x1 ![0] bcast_S131072_S131072x1_0 : (⟨S131072, .i32⟩ : BufTy).Contents (Elt F) → (⟨S131072x1, .i32⟩ : BufTy).Contents (Elt F)),
    ternary main_v78 main_v79 main_v75 main_v80 ((fun x i u => Host.scatterAdd scatter_S1024x128_S131072x1_S131072x128_1_0_0_1 x i u) : (⟨S1024x128, .f32⟩ : BufTy).Contents (Elt F) → (⟨S131072x1, .i32⟩ : BufTy).Contents (Elt F) → (⟨S131072x128, .f32⟩ : BufTy).Contents (Elt F) → (⟨S1024x128, .f32⟩ : BufTy).Contents (Elt F)),
    nullary main_cst_24 (constant S_ .f32 0x43000000#32),
    unary main_cst_24 main_v81 (broadcastInDim S1024x128 ![] bcast_S_S1024x128 : (⟨S_, .f32⟩ : BufTy).Contents (Elt F) → (⟨S1024x128, .f32⟩ : BufTy).Contents (Elt F)),
    binary main_v80 main_v81 main_v82 (Host.divf : (⟨S1024x128, .f32⟩ : BufTy).Contents (Elt F) → (⟨S1024x128, .f32⟩ : BufTy).Contents (Elt F) → (⟨S1024x128, .f32⟩ : BufTy).Contents (Elt F)),
    binary main_v82 main_arg4 main_v83 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    binary main_v83 main_arg5 main_v84 ((fun l r => Host.dotGeneral dot_S1024x64_S64x16_S1024x16_1_0_0_1_n_n none l r) : (⟨S1024x64, .f32⟩ : BufTy).Contents (Elt F) → (⟨S64x16, .f32⟩ : BufTy).Contents (Elt F) → (⟨S1024x16, .f32⟩ : BufTy).Contents (Elt F)) ]

set_option maxRecDepth 4096 in
/-- The first stretch of the entry function is the line `ops0`: the called functions written out at their calls, the
    sequencing reassociated. -/
theorem part0_eq (c : Dev nD) : main_part0 (F := F) c = seq ops0 := by
  simp only [main_part0, fn_clip.body, fn_where.body, fn_where_0.body, fn_where_1.body, fn_floor_divide.body, seq, bind_assoc, pure_bind]
  rfl

set_option maxRecDepth 4096 in
/-- The second stretch is the line `ops1`. -/
theorem part1_eq (c : Dev nD) : main_part1 (F := F) c = seq ops1 := by
  simp only [main_part1, fn_clip.body, fn_where.body, fn_where_0.body, fn_where_1.body, fn_floor_divide.body, seq, bind_assoc, pure_bind]

/-- The whole entry function is the two lines one after the other. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..⟩

theorem ops1_sub : (ops1 : List (HloOp τ sig (Elt F))).Forall fun op => op.bufs ⊆ tcRefs τ sig :=
  ⟨unary_bufs_sub .., ternary_bufs_sub .., nullary_bufs_sub .., unary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., unary_bufs_sub .., ternary_bufs_sub .., nullary_bufs_sub ..,
    unary_bufs_sub .., binary_bufs_sub .., binary_bufs_sub .., binary_bufs_sub ..⟩

theorem ops_sub : ((ops0 ++ ops1 : List (HloOp τ sig (Elt F)))).Forall fun op => op.bufs ⊆ tcRefs τ sig :=
  List.forall_iff_forall_mem.mpr fun op h => (List.mem_append.mp h).elim
    (List.forall_iff_forall_mem.mp ops0_sub op) (List.forall_iff_forall_mem.mp ops1_sub op)

/-- From any memory with zero counters every weakly fair execution of the reference terminates, and every final state has each
    buffer at the fold of the two lines over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops0 ++ ops1) (launchContents m c) (b : DevRef τ sig) :=
  run_seq scopedRefs_eq scopedSems_eq defs main (fun _ => ops0 ++ ops1) main_eq (fun _ => ops_sub) m ρ

end Cert.ReferenceIdeal.RefRun

end
-- ==== Proof.RefVal.lean ====
/-
  The reference program's result as one function of its arguments.

  The fold of the reference's operations over the launch contents, read at the result buffer, is a composition of named pieces:
  the degree factors, the first aggregation over the edges, the dense chain (scale, first weight matrix, rectifier, scale, second
  weight matrix), the second aggregation, and the head (scale, rectifier, sum over each graph's nodes, division by 128, the two
  head matrices). The sparse pieces are the same host operations the kernel program runs and are only named here.
-/
import proofs.«179570_j8117488190078_2_alg».proof.Proof.RefRun
import Idealize.ShloMosaic.Lib.Pipeline.Frame

set_option maxRecDepth 16384

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The all-ones update vector, one entry per edge. -/
def ones : FVec F S1048576 .f32 := broadcastInDim S1048576 ![] bcast_S_S1048576 (constant S_ .f32 0x3F800000#32)

/-- The all-zero vector, one entry per node, the degree count starts from. -/
def zeros1 : FVec F S131072 .f32 := broadcastInDim S131072 ![] bcast_S_S131072 (constant S_ .f32 0x00000000#32)

/-- The clamped count, per node, of the entries of an endpoint list equal to the node: the updates `o` added into `z` at the
    endpoints, and at least one. -/
def degOf (z : FVec F S131072 .f32) (o : FVec F S1048576 .f32) (idx : IVec S1048576 32) : FVec F S131072 .f32 :=
  maximumf (broadcastInDim S131072 ![] bcast_S_S131072 (id (constant S_ .f32 0x3F800000#32)))
    (Host.scatterAdd scatter_S131072_S1048576x1_S1048576_n_0_0_1 z
      (broadcastInDim S1048576x1 ![0] bcast_S1048576_S1048576x1_0 idx) o)

/-- The clamped degree of every node with respect to one endpoint list: the number of edges whose endpoint is the node, and at
    least one. -/
def deg (idx : IVec S1048576 32) : FVec F S131072 .f32 := degOf zeros1 ones idx

/-- A clamped degree to the power `-1/2`. -/
def invOf (d : FVec F S131072 .f32) : FVec F S131072 .f32 :=
  Host.powf d (broadcastInDim S131072 ![] bcast_S_S131072 (constant S_ .f32 0xBF000000#32))

/-- The degree factor: the clamped degree to the power `-1/2`. -/
def inv (idx : IVec S1048576 32) : FVec F S131072 .f32 := invOf (deg idx)

/-- A node index read the way array indexing reads it: a negative index counts from the end. -/
def wrap (src : IVec S1048576 32) : IVec S1048576 32 :=
  select (cmpi .slt src (broadcastInDim S1048576 ![] bcast_S_S1048576 (constantI S_ 32 0#32)))
    (addi src (broadcastInDim S1048576 ![] bcast_S_S1048576 (constantI S_ 32 131072#32))) src

/-- One aggregation over the edges on 64 features: every edge takes its source node's row, weights it, and adds it into its
    destination node's row. -/
def agg64 (x : FVec F S131072x64 .f32) (src dst : IVec S1048576 32) (w : FVec F S1048576 .f32) : FVec F S131072x64 .f32 :=
  Host.scatterAdd scatter_S131072x64_S1048576x1_S1048576x64_1_0_0_1
    (broadcastInDim S131072x64 ![] bcast_S_S131072x64 (constant S_ .f32 0x00000000#32))
    (broadcastInDim S1048576x1 ![0] bcast_S1048576_S1048576x1_0 dst)
    (mulf (Host.gather gather_S131072x64_S1048576x1_S1048576x64_1_0_n_n_0_1_164 x
        (broadcastInDim S1048576x1 ![0] bcast_S1048576_S1048576x1_0 (wrap src)))
      (broadcastInDim S1048576x64 ![0, 1] bcast_S1048576x1_S1048576x64_0_1
        (broadcastInDim S1048576x1 ![0] bcast_S1048576_S1048576x1_0 w)))

/-- The same aggregation on 128 features. -/
def agg128 (x : FVec F S131072x128 .f32) (src dst : IVec S1048576 32) (w : FVec F S1048576 .f32) : FVec F S131072x128 .f32 :=
  Host.scatterAdd scatter_S131072x128_S1048576x1_S1048576x128_1_0_0_1
    (broadcastInDim S131072x128 ![] bcast_S_S131072x128 (constant S_ .f32 0x00000000#32))
    (broadcastInDim S1048576x1 ![0] bcast_S1048576_S1048576x1_0 dst)
    (mulf (Host.gather gather_S131072x128_S1048576x1_S1048576x128_1_0_n_n_0_1_1128 x
        (broadcastInDim S1048576x1 ![0] bcast_S1048576_S1048576x1_0 (wrap src)))
      (broadcastInDim S1048576x128 ![0, 1] bcast_S1048576x1_S1048576x128_0_1
        (broadcastInDim S1048576x1 ![0] bcast_S1048576_S1048576x1_0 w)))

/-- A per-node factor spread along 64 feature columns. -/
def col64 (v : FVec F S131072 .f32) : FVec F S131072x64 .f32 :=
  broadcastInDim S131072x64 ![0, 1] bcast_S131072x1_S131072x64_0_1 (broadcastInDim S131072x1 ![0] bcast_S131072_S131072x1_0 v)

/-- The node features scaled by the out-degree factor and aggregated over the edges: the first layer's aggregate. -/
def agg1 (x : FVec F S131072x64 .f32) (w : FVec F S1048576 .f32) (src dst : IVec S1048576 32) : FVec F S131072x64 .f32 :=
  agg64 (mulf x (col64 (inv src))) src dst w

/-- A per-node factor spread along 256 feature columns. -/
def col256 (v : FVec F S131072 .f32) : FVec F S131072x256 .f32 :=
  broadcastInDim S131072x256 ![0, 1] bcast_S131072x1_S131072x256_0_1 (broadcastInDim S131072x1 ![0] bcast_S131072_S131072x1_0 v)

/-- A per-node factor spread along 128 feature columns. -/
def col128 (v : FVec F S131072 .f32) : FVec F S131072x128 .f32 :=
  broadcastInDim S131072x128 ![0, 1] bcast_S131072x1_S131072x128_0_1 (broadcastInDim S131072x1 ![0] bcast_S131072_S131072x1_0 v)

/-- The leaky rectifier on an array of 256 columns: the entry where it is at least zero, the slope times the entry elsewhere. -/
def lrelu256 (x : FVec F S131072x256 .f32) : FVec F S131072x256 .f32 :=
  select (cmpf .oge x (broadcastInDim S131072x256 ![] bcast_S_S131072x256 (constant S_ .f32 0x00000000#32))) x
    (mulf (broadcastInDim S131072x256 ![] bcast_S_S131072x256 (constant S_ .f32 0x3C23D70A#32)) x)

/-- The leaky rectifier on an array of 128 columns. -/
def lrelu128 (x : FVec F S131072x128 .f32) : FVec F S131072x128 .f32 :=
  select (cmpf .oge x (broadcastInDim S131072x128 ![] bcast_S_S131072x128 (constant S_ .f32 0x00000000#32))) x
    (mulf (broadcastInDim S131072x128 ![] bcast_S_S131072x128 (constant S_ .f32 0x3C23D70A#32)) x)

/-- The dense chain between the two aggregations: scale the rows by the in-degree factor, multiply by the first weight matrix,
    rectify, scale the rows by the out-degree factor, multiply by the second weight matrix. -/
def mid (A : FVec F S131072x64 .f32) (i7 i6 : FVec F S131072 .f32) (W1 : FVec F S64x256 .f32) (W2 : FVec F S256x128 .f32) :
    FVec F S131072x128 .f32 :=
  Host.dotGeneral dot_S131072x256_S256x128_S131072x128_1_0_0_1_n_n none
    (mulf (lrelu256 (Host.dotGeneral dot_S131072x64_S64x256_S131072x256_1_0_0_1_n_n none (mulf A (col64 i7)) W1)) (col256 i6)) W2

/-- The graph of every node: the node's index divided by 128, rounded down, as the signed integer division with its
    correction for operands of different signs computes it. -/
def gid : IVec S131072 32 :=
  let x : IVec S131072 32 := iotaInDim S131072 32 0
  let y : IVec S_ 32 := id (constantI S_ 32 128#32)
  let q : IVec S131072 32 := Host.divsi x (broadcastInDim S131072 ![] bcast_S_S131072 y)
  select
    (andi (cmpi .ne (signi x) (broadcastInDim S131072 ![] bcast_S_S131072 (signi y)))
      (cmpi .ne (Host.remsi x (broadcastInDim S131072 ![] bcast_S_S131072 y))
        (broadcastInDim S131072 ![] bcast_S_S131072 (constantI S_ 32 0#32))))
    (subi q (broadcastInDim S131072 ![] bcast_S_S131072 (constantI S_ 32 1#32))) q

/-- The head: scale the rows by the in-degree factor, rectify, add every node's row into its graph's row, divide by 128, and
    multiply by the two head matrices. -/
def tail (A2 : FVec F S131072x128 .f32) (i7 : FVec F S131072 .f32) (Wl : FVec F S128x64 .f32) (Wc : FVec F S64x16 .f32) :
    FVec F S1024x16 .f32 :=
  Host.dotGeneral dot_S1024x64_S64x16_S1024x16_1_0_0_1_n_n none
    (Host.dotGeneral dot_S1024x128_S128x64_S1024x64_1_0_0_1_n_n none
      (Host.divf
        (Host.scatterAdd scatter_S1024x128_S131072x1_S131072x128_1_0_0_1
          (broadcastInDim S1024x128 ![] bcast_S_S1024x128 (constant S_ .f32 0x00000000#32))
          (broadcastInDim S131072x1 ![0] bcast_S131072_S131072x1_0 gid)
          (lrelu128 (mulf A2 (col128 i7))))
        (broadcastInDim S1024x128 ![] bcast_S_S1024x128 (constant S_ .f32 0x43000000#32)))
      Wl) Wc

/-- The reference's result as one function of the arguments: the head of the second aggregation of the dense chain of the
    first aggregation. -/
def out (a0 : FVec F S131072x64 .f32) (a1 : FVec F S1048576 .f32) (a2 : FVec F S64x256 .f32) (a3 : FVec F S256x128 .f32)
    (a4 : FVec F S128x64 .f32) (a5 : FVec F S64x16 .f32) (a6 a7 : IVec S1048576 32) : FVec F S1024x16 .f32 :=
  tail (agg128 (mid (agg1 a0 a1 a6 a7) (inv a7) (inv a6) a2 a3) a6 a7 a1) (inv a7) a4 a5

/-- What the first stretch leaves for the second, beside the ones vector, the out-degrees and a zero vector: the first layer's
    rectified activations. -/
def act1 (a0 : FVec F S131072x64 .f32) (a1 : FVec F S1048576 .f32) (a2 : FVec F S64x256 .f32) (a6 a7 : IVec S1048576 32) :
    FVec F S131072x256 .f32 :=
  lrelu256 (Host.dotGeneral dot_S131072x64_S64x256_S131072x256_1_0_0_1_n_n none (mulf (agg1 a0 a1 a6 a7) (col64 (inv a7))) a2)

/-- The second stretch, from the first layer's activations `h`, the ones vector `o`, the clamped out-degrees `dout` and the
    zero vector `z` the first stretch left. -/
def rest (h : FVec F S131072x256 .f32) (o : FVec F S1048576 .f32) (dout z : FVec F S131072 .f32) (a1 : FVec F S1048576 .f32)
    (a3 : FVec F S256x128 .f32) (a4 : FVec F S128x64 .f32) (a5 : FVec F S64x16 .f32) (a6 a7 : IVec S1048576 32) :
    FVec F S1024x16 .f32 :=
  tail (agg128 (Host.dotGeneral dot_S131072x256_S256x128_S131072x128_1_0_0_1_n_n none (mulf h (col256 (invOf dout))) a3) a6 a7 a1)
    (invOf (degOf z o a7)) a4 a5

/-- The two stretches composed are the whole. -/
theorem out_split (a0 : FVec F S131072x64 .f32) (a1 : FVec F S1048576 .f32) (a2 : FVec F S64x256 .f32) (a3 : FVec F S256x128 .f32)
    (a4 : FVec F S128x64 .f32) (a5 : FVec F S64x16 .f32) (a6 a7 : IVec S1048576 32) :
    rest (act1 a0 a1 a2 a6 a7) ones (deg a6) zeros1 a1 a3 a4 a5 a6 a7 = out a0 a1 a2 a3 a4 a5 a6 a7 := rfl

/-! ## The fold of the first stretch, read at the buffers the second stretch uses -/

set_option maxHeartbeats 4000000 in
theorem act1_eq (V : Valuation τ sig (Elt F)) :
    after ops0 V (Proc.devRef .tc main_v37)
      = act1 (V (Proc.devRef .tc main_arg0)) (V (Proc.devRef .tc main_arg1)) (V (Proc.devRef .tc main_arg2)) (V (Proc.devRef .tc main_arg6)) (V (Proc.devRef .tc main_arg7)) := by
  after_results_simp
  rfl

set_option maxHeartbeats 4000000 in
theorem ones_eq (V : Valuation τ sig (Elt F)) : after ops0 V (Proc.devRef .tc main_v38) = ones := by
  after_results_simp
  rfl

set_option maxHeartbeats 4000000 in
theorem dout_eq (V : Valuation τ sig (Elt F)) : after ops0 V (Proc.devRef .tc main_v42) = deg (V (Proc.devRef .tc main_arg6)) := by
  after_results_simp
  rfl

set_option maxHeartbeats 4000000 in
theorem zeros_eq (V : Valuation τ sig (Elt F)) : after ops0 V (Proc.devRef .tc main_v43) = zeros1 := by
  after_results_simp
  rfl

set_option maxHeartbeats 4000000 in
theorem ops0_main_arg0 (V : Valuation τ sig (Elt F)) : after ops0 V (Proc.devRef .tc main_arg0) = (V (Proc.devRef .tc main_arg0)) := by
  after_results_simp
set_option maxHeartbeats 4000000 in
theorem ops1_main_arg0 (W : Valuation τ sig (Elt F)) : after ops1 W (Proc.devRef .tc main_arg0) = (W (Proc.devRef .tc main_arg0)) := by
  after_results_simp

set_option maxHeartbeats 4000000 in
theorem ops0_main_arg1 (V : Valuation τ sig (Elt F)) : after ops0 V (Proc.devRef .tc main_arg1) = (V (Proc.devRef .tc main_arg1)) := by
  after_results_simp
set_option maxHeartbeats 4000000 in
theorem ops1_main_arg1 (W : Valuation τ sig (Elt F)) : after ops1 W (Proc.devRef .tc main_arg1) = (W (Proc.devRef .tc main_arg1)) := by
  after_results_simp

set_option maxHeartbeats 4000000 in
theorem ops0_main_arg2 (V : Valuation τ sig (Elt F)) : after ops0 V (Proc.devRef .tc main_arg2) = (V (Proc.devRef .tc main_arg2)) := by
  after_results_simp
set_option maxHeartbeats 4000000 in
theorem ops1_main_arg2 (W : Valuation τ sig (Elt F)) : after ops1 W (Proc.devRef .tc main_arg2) = (W (Proc.devRef .tc main_arg2)) := by
  after_results_simp

set_option maxHeartbeats 4000000 in
theorem ops0_main_arg3 (V : Valuation τ sig (Elt F)) : after ops0 V (Proc.devRef .tc main_arg3) = (V (Proc.devRef .tc main_arg3)) := by
  after_results_simp
set_option maxHeartbeats 4000000 in
theorem ops1_main_arg3 (W : Valuation τ sig (Elt F)) : after ops1 W (Proc.devRef .tc main_arg3) = (W (Proc.devRef .tc main_arg3)) := by
  after_results_simp

set_option maxHeartbeats 4000000 in
theorem ops0_main_arg4 (V : Valuation τ sig (Elt F)) : after ops0 V (Proc.devRef .tc main_arg4) = (V (Proc.devRef .tc main_arg4)) := by
  after_results_simp
set_option maxHeartbeats 4000000 in
theorem ops1_main_arg4 (W : Valuation τ sig (Elt F)) : after ops1 W (Proc.devRef .tc main_arg4) = (W (Proc.devRef .tc main_arg4)) := by
  after_results_simp

set_option maxHeartbeats 4000000 in
theorem ops0_main_arg5 (V : Valuation τ sig (Elt F)) : after ops0 V (Proc.devRef .tc main_arg5) = (V (Proc.devRef .tc main_arg5)) := by
  after_results_simp
set_option maxHeartbeats 4000000 in
theorem ops1_main_arg5 (W : Valuation τ sig (Elt F)) : after ops1 W (Proc.devRef .tc main_arg5) = (W (Proc.devRef .tc main_arg5)) := by
  after_results_simp

set_option maxHeartbeats 4000000 in
theorem ops0_main_arg6 (V : Valuation τ sig (Elt F)) : after ops0 V (Proc.devRef .tc main_arg6) = (V (Proc.devRef .tc main_arg6)) := by
  after_results_simp
set_option maxHeartbeats 4000000 in
theorem ops1_main_arg6 (W : Valuation τ sig (Elt F)) : after ops1 W (Proc.devRef .tc main_arg6) = (W (Proc.devRef .tc main_arg6)) := by
  after_results_simp

set_option maxHeartbeats 4000000 in
theorem ops0_main_arg7 (V : Valuation τ sig (Elt F)) : after ops0 V (Proc.devRef .tc main_arg7) = (V (Proc.devRef .tc main_arg7)) := by
  after_results_simp
set_option maxHeartbeats 4000000 in
theorem ops1_main_arg7 (W : Valuation τ sig (Elt F)) : after ops1 W (Proc.devRef .tc main_arg7) = (W (Proc.devRef .tc main_arg7)) := by
  after_results_simp

/-! ## The fold of the second stretch, read at the result -/

set_option maxHeartbeats 4000000 in
theorem rest_eq (W : Valuation τ sig (Elt F)) :
    after ops1 W (Proc.devRef .tc main_v84)
      = rest (W (Proc.devRef .tc main_v37)) (W (Proc.devRef .tc main_v38)) (W (Proc.devRef .tc main_v42)) (W (Proc.devRef .tc main_v43)) (W (Proc.devRef .tc main_arg1)) (W (Proc.devRef .tc main_arg3))
          (W (Proc.devRef .tc main_arg4)) (W (Proc.devRef .tc main_arg5)) (W (Proc.devRef .tc main_arg6)) (W (Proc.devRef .tc main_arg7)) := by
  after_results_simp
  rfl

/-- The whole fold at the result buffer is `out` of the launch contents of the arguments. -/
theorem out_eq (V : Valuation τ sig (Elt F)) :
    after (ops0 ++ ops1) V (Proc.devRef .tc main_v84)
      = out (V (Proc.devRef .tc main_arg0)) (V (Proc.devRef .tc main_arg1)) (V (Proc.devRef .tc main_arg2)) (V (Proc.devRef .tc main_arg3)) (V (Proc.devRef .tc main_arg4)) (V (Proc.devRef .tc main_arg5))
          (V (Proc.devRef .tc main_arg6)) (V (Proc.devRef .tc main_arg7)) := by
  rw [StableHlo.after_append, rest_eq, act1_eq, ones_eq, dout_eq, zeros_eq, ops0_main_arg1, ops0_main_arg3, ops0_main_arg4,
    ops0_main_arg5, ops0_main_arg6, ops0_main_arg7]
  exact out_split _ _ _ _ _ _ _ _

/-- The argument `main_arg0` is written by no operation. -/
theorem main_arg0_eq (V : Valuation τ sig (Elt F)) : after (ops0 ++ ops1) V (Proc.devRef .tc main_arg0) = (V (Proc.devRef .tc main_arg0)) := by
  rw [StableHlo.after_append, ops1_main_arg0, ops0_main_arg0]

/-- The argument `main_arg1` is written by no operation. -/
theorem main_arg1_eq (V : Valuation τ sig (Elt F)) : after (ops0 ++ ops1) V (Proc.devRef .tc main_arg1) = (V (Proc.devRef .tc main_arg1)) := by
  rw [StableHlo.after_append, ops1_main_arg1, ops0_main_arg1]

/-- The argument `main_arg2` is written by no operation. -/
theorem main_arg2_eq (V : Valuation τ sig (Elt F)) : after (ops0 ++ ops1) V (Proc.devRef .tc main_arg2) = (V (Proc.devRef .tc main_arg2)) := by
  rw [StableHlo.after_append, ops1_main_arg2, ops0_main_arg2]

/-- The argument `main_arg3` is written by no operation. -/
theorem main_arg3_eq (V : Valuation τ sig (Elt F)) : after (ops0 ++ ops1) V (Proc.devRef .tc main_arg3) = (V (Proc.devRef .tc main_arg3)) := by
  rw [StableHlo.after_append, ops1_main_arg3, ops0_main_arg3]

/-- The argument `main_arg4` is written by no operation. -/
theorem main_arg4_eq (V : Valuation τ sig (Elt F)) : after (ops0 ++ ops1) V (Proc.devRef .tc main_arg4) = (V (Proc.devRef .tc main_arg4)) := by
  rw [StableHlo.after_append, ops1_main_arg4, ops0_main_arg4]

/-- The argument `main_arg5` is written by no operation. -/
theorem main_arg5_eq (V : Valuation τ sig (Elt F)) : after (ops0 ++ ops1) V (Proc.devRef .tc main_arg5) = (V (Proc.devRef .tc main_arg5)) := by
  rw [StableHlo.after_append, ops1_main_arg5, ops0_main_arg5]

/-- The argument `main_arg6` is written by no operation. -/
theorem main_arg6_eq (V : Valuation τ sig (Elt F)) : after (ops0 ++ ops1) V (Proc.devRef .tc main_arg6) = (V (Proc.devRef .tc main_arg6)) := by
  rw [StableHlo.after_append, ops1_main_arg6, ops0_main_arg6]

/-- The argument `main_arg7` is written by no operation. -/
theorem main_arg7_eq (V : Valuation τ sig (Elt F)) : after (ops0 ++ ops1) V (Proc.devRef .tc main_arg7) = (V (Proc.devRef .tc main_arg7)) := by
  rw [StableHlo.after_append, ops1_main_arg7, ops0_main_arg7]

end Cert.ReferenceIdeal.RefVal

end
-- ==== Proof.KHost.lean ====
/-
  The kernel program's host side, read back as functions of the arguments.

  Before the first kernel the host computes, from the two endpoint lists, the clamped degrees and their powers `-1/2`, scales the
  node features by the out-degree factor, and aggregates them over the edges (gather at the sources, weight, scatter-add into the
  destinations). The first kernel's windows are that aggregate, the two degree factors as one-column arrays, and the first two
  weight matrices. Between the kernels the host aggregates the first kernel's result over the edges in the same way; the second
  kernel's windows are that aggregate, the in-degree factor as a one-column array, and the last two weight matrices.
  Each statement below is the fold of the host operations read at one buffer.
-/
import proofs.«179570_j8117488190078_2_alg».proof.Proof.Gen.KernelIdeal.Frame
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The all-ones update vector, one entry per edge. -/
def ones : FVec F S1048576 .f32 := broadcastInDim S1048576 ![] bcast_S_S1048576 (constant S_ .f32 0x3F800000#32)

/-- The all-zero vector, one entry per node, the degree count starts from. -/
def zeros1 : FVec F S131072 .f32 := broadcastInDim S131072 ![] bcast_S_S131072 (constant S_ .f32 0x00000000#32)

/-- The clamped count, per node, of the entries of an endpoint list equal to the node: the updates `o` added into `z` at the
    endpoints, and at least one. -/
def degOf (z : FVec F S131072 .f32) (o : FVec F S1048576 .f32) (idx : IVec S1048576 32) : FVec F S131072 .f32 :=
  maximumf (broadcastInDim S131072 ![] bcast_S_S131072 (id (constant S_ .f32 0x3F800000#32)))
    (Host.scatterAdd scatter_S131072_S1048576x1_S1048576_n_0_0_1 z
      (broadcastInDim S1048576x1 ![0] bcast_S1048576_S1048576x1_0 idx) o)

/-- The clamped degree of every node with respect to one endpoint list: the number of edges whose endpoint is the node, and at
    least one. -/
def deg (idx : IVec S1048576 32) : FVec F S131072 .f32 := degOf zeros1 ones idx

/-- A clamped degree to the power `-1/2`. -/
def invOf (d : FVec F S131072 .f32) : FVec F S131072 .f32 :=
  Host.powf d (broadcastInDim S131072 ![] bcast_S_S131072 (constant S_ .f32 0xBF000000#32))

/-- The degree factor: the clamped degree to the power `-1/2`. -/
def inv (idx : IVec S1048576 32) : FVec F S131072 .f32 := invOf (deg idx)

/-- A node index read the way array indexing reads it: a negative index counts from the end. -/
def wrap (src : IVec S1048576 32) : IVec S1048576 32 :=
  select (cmpi .slt src (broadcastInDim S1048576 ![] bcast_S_S1048576 (constantI S_ 32 0#32)))
    (addi src (broadcastInDim S1048576 ![] bcast_S_S1048576 (constantI S_ 32 131072#32))) src

/-- One aggregation over the edges on 64 features: every edge takes its source node's row, weights it, and adds it into its
    destination node's row. -/
def agg64 (x : FVec F S131072x64 .f32) (src dst : IVec S1048576 32) (w : FVec F S1048576 .f32) : FVec F S131072x64 .f32 :=
  Host.scatterAdd scatter_S131072x64_S1048576x1_S1048576x64_1_0_0_1
    (broadcastInDim S131072x64 ![] bcast_S_S131072x64 (constant S_ .f32 0x00000000#32))
    (broadcastInDim S1048576x1 ![0] bcast_S1048576_S1048576x1_0 dst)
    (mulf (Host.gather gather_S131072x64_S1048576x1_S1048576x64_1_0_n_n_0_1_164 x
        (broadcastInDim S1048576x1 ![0] bcast_S1048576_S1048576x1_0 (wrap src)))
      (broadcastInDim S1048576x64 ![0, 1] bcast_S1048576x1_S1048576x64_0_1
        (broadcastInDim S1048576x1 ![0] bcast_S1048576_S1048576x1_0 w)))

/-- The same aggregation on 128 features. -/
def agg128 (x : FVec F S131072x128 .f32) (src dst : IVec S1048576 32) (w : FVec F S1048576 .f32) : FVec F S131072x128 .f32 :=
  Host.scatterAdd scatter_S131072x128_S1048576x1_S1048576x128_1_0_0_1
    (broadcastInDim S131072x128 ![] bcast_S_S131072x128 (constant S_ .f32 0x00000000#32))
    (broadcastInDim S1048576x1 ![0] bcast_S1048576_S1048576x1_0 dst)
    (mulf (Host.gather gather_S131072x128_S1048576x1_S1048576x128_1_0_n_n_0_1_1128 x
        (broadcastInDim S1048576x1 ![0] bcast_S1048576_S1048576x1_0 (wrap src)))
      (broadcastInDim S1048576x128 ![0, 1] bcast_S1048576x1_S1048576x128_0_1
        (broadcastInDim S1048576x1 ![0] bcast_S1048576_S1048576x1_0 w)))

/-- A per-node factor spread along 64 feature columns. -/
def col64 (v : FVec F S131072 .f32) : FVec F S131072x64 .f32 :=
  broadcastInDim S131072x64 ![0, 1] bcast_S131072x1_S131072x64_0_1 (broadcastInDim S131072x1 ![0] bcast_S131072_S131072x1_0 v)

/-- The node features scaled by the out-degree factor and aggregated over the edges: the first layer's aggregate. -/
def agg1 (x : FVec F S131072x64 .f32) (w : FVec F S1048576 .f32) (src dst : IVec S1048576 32) : FVec F S131072x64 .f32 :=
  agg64 (mulf x (col64 (inv src))) src dst w
/-- A per-node factor as a one-column array. -/
def colv (v : FVec F S131072 .f32) : FVec F S131072x1 .f32 := shapeCast S131072x1 v shapeCasts_S131072_S131072x1

variable (m : (ℓ : Loc nD τ sig) → Buf (Elt F) ℓ) (ρ : Dev nD → PrngReg)

/-! ## At the first kernel's entry -/

/-- No host operation before the first kernel writes the argument `main_arg1`. -/
theorem W5_main_arg1 (c : Dev nD) : W5 m ρ c (Proc.devRef .tc main_arg1) = (m ((c.tc : Thread nD τ).loc main_arg1)) := by
  show after hostOps0_4 (after hostOps0_3 (after hostOps0_2 (after hostOps0_1 (after hostOps0 (W0 m ρ c))))) (Proc.devRef .tc main_arg1) = _
  after_results_simp

/-- No host operation before the first kernel writes the argument `main_arg2`. -/
theorem W5_main_arg2 (c : Dev nD) : W5 m ρ c (Proc.devRef .tc main_arg2) = (m ((c.tc : Thread nD τ).loc main_arg2)) := by
  show after hostOps0_4 (after hostOps0_3 (after hostOps0_2 (after hostOps0_1 (after hostOps0 (W0 m ρ c))))) (Proc.devRef .tc main_arg2) = _
  after_results_simp

/-- No host operation before the first kernel writes the argument `main_arg3`. -/
theorem W5_main_arg3 (c : Dev nD) : W5 m ρ c (Proc.devRef .tc main_arg3) = (m ((c.tc : Thread nD τ).loc main_arg3)) := by
  show after hostOps0_4 (after hostOps0_3 (after hostOps0_2 (after hostOps0_1 (after hostOps0 (W0 m ρ c))))) (Proc.devRef .tc main_arg3) = _
  after_results_simp

/-- No host operation before the first kernel writes the argument `main_arg4`. -/
theorem W5_main_arg4 (c : Dev nD) : W5 m ρ c (Proc.devRef .tc main_arg4) = (m ((c.tc : Thread nD τ).loc main_arg4)) := by
  show after hostOps0_4 (after hostOps0_3 (after hostOps0_2 (after hostOps0_1 (after hostOps0 (W0 m ρ c))))) (Proc.devRef .tc main_arg4) = _
  after_results_simp

/-- No host operation before the first kernel writes the argument `main_arg5`. -/
theorem W5_main_arg5 (c : Dev nD) : W5 m ρ c (Proc.devRef .tc main_arg5) = (m ((c.tc : Thread nD τ).loc main_arg5)) := by
  show after hostOps0_4 (after hostOps0_3 (after hostOps0_2 (after hostOps0_1 (after hostOps0 (W0 m ρ c))))) (Proc.devRef .tc main_arg5) = _
  after_results_simp

/-- No host operation before the first kernel writes the argument `main_arg6`. -/
theorem W5_main_arg6 (c : Dev nD) : W5 m ρ c (Proc.devRef .tc main_arg6) = (m ((c.tc : Thread nD τ).loc main_arg6)) := by
  show after hostOps0_4 (after hostOps0_3 (after hostOps0_2 (after hostOps0_1 (after hostOps0 (W0 m ρ c))))) (Proc.devRef .tc main_arg6) = _
  after_results_simp

/-- No host operation before the first kernel writes the argument `main_arg7`. -/
theorem W5_main_arg7 (c : Dev nD) : W5 m ρ c (Proc.devRef .tc main_arg7) = (m ((c.tc : Thread nD τ).loc main_arg7)) := by
  show after hostOps0_4 (after hostOps0_3 (after hostOps0_2 (after hostOps0_1 (after hostOps0 (W0 m ρ c))))) (Proc.devRef .tc main_arg7) = _
  after_results_simp

/-- The first kernel's first window is the first layer's aggregate. -/
theorem V5_v28 (c : Dev nD) :
    V5 m ρ c main_v28 = agg1 (m ((c.tc : Thread nD τ).loc main_arg0)) (m ((c.tc : Thread nD τ).loc main_arg1)) (m ((c.tc : Thread nD τ).loc main_arg6)) (m ((c.tc : Thread nD τ).loc main_arg7)) := by
  show after hostOps0_4 (after hostOps0_3 (after hostOps0_2 (after hostOps0_1 (after hostOps0 (W0 m ρ c))))) (Proc.devRef .tc main_v28) = _
  after_results_simp
  rfl

/-- The in-degree factor, before it is laid out as a column. -/
theorem W5_v12 (c : Dev nD) : W5 m ρ c (Proc.devRef .tc main_v12) = inv (m ((c.tc : Thread nD τ).loc main_arg7)) := by
  show after hostOps0_4 (after hostOps0_3 (after hostOps0_2 (after hostOps0_1 (after hostOps0 (W0 m ρ c))))) (Proc.devRef .tc main_v12) = _
  after_results_simp
  rfl

/-- The first kernel's second window is the in-degree factor as a column. -/
theorem V5_v29 (c : Dev nD) : V5 m ρ c main_v29 = colv (inv (m ((c.tc : Thread nD τ).loc main_arg7))) := by
  show after hostOps0_4 (after hostOps0_3 (after hostOps0_2 (after hostOps0_1 (after hostOps0 (W0 m ρ c))))) (Proc.devRef .tc main_v29) = _
  after_results_simp
  rfl

/-- The first kernel's third window is the out-degree factor as a column. -/
theorem V5_v30 (c : Dev nD) : V5 m ρ c main_v30 = colv (inv (m ((c.tc : Thread nD τ).loc main_arg6))) := by
  show after hostOps0_4 (after hostOps0_3 (after hostOps0_2 (after hostOps0_1 (after hostOps0 (W0 m ρ c))))) (Proc.devRef .tc main_v30) = _
  after_results_simp
  rfl

/-- Its weight windows are the arguments. -/
theorem V5_arg2 (c : Dev nD) : V5 m ρ c main_arg2 = (m ((c.tc : Thread nD τ).loc main_arg2)) := W5_main_arg2 m ρ c
theorem V5_arg3 (c : Dev nD) : V5 m ρ c main_arg3 = (m ((c.tc : Thread nD τ).loc main_arg3)) := W5_main_arg3 m ρ c

/-! ## At the second kernel's entry -/

/-- The second kernel's first window is the aggregate over the edges of what the first kernel left. -/
theorem V7_v44 (c : Dev nD) :
    V7 m ρ c main_v44 = agg128 (W6 m ρ c (Proc.devRef .tc main_v31)) (m ((c.tc : Thread nD τ).loc main_arg6)) (m ((c.tc : Thread nD τ).loc main_arg7)) (m ((c.tc : Thread nD τ).loc main_arg1)) := by
  show after hostOps1 (W6 m ρ c) (Proc.devRef .tc main_v44) = _
  after_results_simp
  rw [W6_of_ne m ρ c main_arg1 (by decide), W6_of_ne m ρ c main_arg6 (by decide), W6_of_ne m ρ c main_arg7 (by decide),
    W5_main_arg1, W5_main_arg6, W5_main_arg7]
  rfl

/-- Its second window is the in-degree factor as a column. -/
theorem V7_v45 (c : Dev nD) : V7 m ρ c main_v45 = colv (inv (m ((c.tc : Thread nD τ).loc main_arg7))) := by
  show after hostOps1 (W6 m ρ c) (Proc.devRef .tc main_v45) = _
  after_results_simp
  rw [W6_of_ne m ρ c main_v12 (by decide), W5_v12]
  rfl

/-- Its weight windows are the arguments. -/
theorem V7_arg4 (c : Dev nD) : V7 m ρ c main_arg4 = (m ((c.tc : Thread nD τ).loc main_arg4)) := by
  show after hostOps1 (W6 m ρ c) (Proc.devRef .tc main_arg4) = _
  after_results_simp
  rw [W6_of_ne m ρ c main_arg4 (by decide), W5_main_arg4]
theorem V7_arg5 (c : Dev nD) : V7 m ρ c main_arg5 = (m ((c.tc : Thread nD τ).loc main_arg5)) := by
  show after hostOps1 (W6 m ρ c) (Proc.devRef .tc main_arg5) = _
  after_results_simp
  rw [W6_of_ne m ρ c main_arg5 (by decide), W5_main_arg5]

end Cert.KernelIdeal.KHost

end
-- ==== Proof.Spec.lean ====
/-
  The mathematics both programs compute, index by index, on the extended reals.

  A two-layer graph convolution followed by a mean-pool over graphs of 128 consecutive nodes and two linear maps.
  The sparse parts (degree counts, the edge gather and the scatter-add of messages into destination nodes) are the
  same host operations in both programs and stay abstract here: this file only names what is done with their results.

  * `dense A din dout W1 W2` : row `n` of the aggregated features `A` is scaled by `din n`, multiplied by `W1`,
    passed through the leaky rectifier, scaled by `dout n` and multiplied by `W2`.
  * `head A2 din Wl Wc` : row `n` of `A2` is scaled by `din n` and rectified; the 128 rows of graph `g`
    (rows `128 g … 128 g + 127`) are summed and scaled by `2⁻⁷`; the result is multiplied by `Wl`, then by `Wc`.

  Every sum is a finite sum in the commutative monoid of extended reals, so neither the order of the terms nor the way
  the rows are cut into blocks matters; no distributivity or cancellation is used anywhere.
-/
import Idealize.ShloMosaic.PureOps.Ideal
import Idealize.ShloMosaic.PureOps.Ideal.Laws
import Idealize.ShloMosaic.Lib.ValueIdx

noncomputable section

namespace Cert.GnnSpec

open Idealize.ShloMosaic Idealize.ShloMosaic.ValueIdx

/-- The rectifier's slope, the single-precision word nearest to one hundredth (never evaluated: both programs carry the same word). -/
abbrev slope : EReal := Ideal.ofBits .f32 0x3C23D70A#32
/-- The zero word the rectifier compares against. -/
abbrev zeroW : EReal := Ideal.ofBits .f32 0x00000000#32
/-- The pooling scale, the word of `2⁻⁷ = 1/128`. -/
abbrev poolW : EReal := Ideal.ofBits .f32 0x3C000000#32

/-- The leaky rectifier: `x` where `x ≥ 0`, `slope · x` elsewhere. -/
def leaky (x : EReal) : EReal :=
  Scalar.select (FloatOps.cmpf (F := Ideal) (φ := .f32) .oge x zeroW) x (slope * x)

/-- Row `n`, column `k'` of the hidden layer after its rectifier and the out-degree scaling. -/
def hidden (A : Fin 131072 → Fin 64 → EReal) (din dout : Fin 131072 → EReal) (W1 : Fin 64 → Fin 256 → EReal)
    (n : Fin 131072) (k' : Fin 256) : EReal :=
  leaky (∑ k : Fin 64, (A n k * din n) * W1 k k') * dout n

/-- Row `n`, column `j` of the first dense chain's result. -/
def dense (A : Fin 131072 → Fin 64 → EReal) (din dout : Fin 131072 → EReal) (W1 : Fin 64 → Fin 256 → EReal)
    (W2 : Fin 256 → Fin 128 → EReal) (n : Fin 131072) (j : Fin 128) : EReal :=
  ∑ k' : Fin 256, hidden A din dout W1 n k' * W2 k' j

/-- Node `r` of graph `g`. -/
def node (g : Fin 1024) (r : Fin 128) : Fin 131072 := ⟨128 * g.val + r.val, by have := g.isLt; have := r.isLt; omega⟩

/-- Graph `g`, feature `k` of the pooled activations: the sum over the graph's 128 nodes, scaled by `2⁻⁷`. -/
def pooled (A2 : Fin 131072 → Fin 128 → EReal) (din : Fin 131072 → EReal) (g : Fin 1024) (k : Fin 128) : EReal :=
  (∑ r : Fin 128, leaky (A2 (node g r) k * din (node g r))) * poolW

/-- Graph `g`, class `j` of the classifier's output. -/
def head (A2 : Fin 131072 → Fin 128 → EReal) (din : Fin 131072 → EReal) (Wl : Fin 128 → Fin 64 → EReal)
    (Wc : Fin 64 → Fin 16 → EReal) (g : Fin 1024) (j : Fin 16) : EReal :=
  ∑ k2 : Fin 64, (∑ k1 : Fin 128, pooled A2 din g k1 * Wl k1 k2) * Wc k2 j

/-! The same two functions over arrays indexed by shapes. -/

/-- The first dense chain's result as an array of shape `[131072, 128]`, from arrays of shapes `[131072, 64]`,
    `[131072, 1]`, `[131072, 1]`, `[64, 256]`, `[256, 128]`. -/
def denseArr (A : (⟨2, ![131072, 64]⟩ : Shape).Idx → EReal) (din dout : (⟨2, ![131072, 1]⟩ : Shape).Idx → EReal)
    (W1 : (⟨2, ![64, 256]⟩ : Shape).Idx → EReal) (W2 : (⟨2, ![256, 128]⟩ : Shape).Idx → EReal) :
    (⟨2, ![131072, 128]⟩ : Shape).Idx → EReal := fun i =>
  dense (fun n k => A (ix2 n k)) (fun n => din (ix2 n (0 : Fin 1))) (fun n => dout (ix2 n (0 : Fin 1)))
    (fun k k' => W1 (ix2 k k')) (fun k' j => W2 (ix2 k' j)) (i 0) (i 1)

/-- The classifier's output as an array of shape `[1024, 16]`, from arrays of shapes `[131072, 128]`, `[131072, 1]`,
    `[128, 64]`, `[64, 16]`. -/
def headArr (A2 : (⟨2, ![131072, 128]⟩ : Shape).Idx → EReal) (din : (⟨2, ![131072, 1]⟩ : Shape).Idx → EReal)
    (Wl : (⟨2, ![128, 64]⟩ : Shape).Idx → EReal) (Wc : (⟨2, ![64, 16]⟩ : Shape).Idx → EReal) :
    (⟨2, ![1024, 16]⟩ : Shape).Idx → EReal := fun i =>
  head (fun n k => A2 (ix2 n k)) (fun n => din (ix2 n (0 : Fin 1))) (fun k1 k2 => Wl (ix2 k1 k2))
    (fun k2 j => Wc (ix2 k2 j)) (i 0) (i 1)

end Cert.GnnSpec

end
-- ==== Proof.Region0.lean ====
/-
  The first dense chain, read off the first region of the program, is the specification's `denseArr`.

  The region walks a grid of 64 points over the 131072 rows of the aggregated features, 2048 rows at a point. At
  point `t` it sees rows `2048 t … 2048 t + 2047` of the aggregated features and of the two columns of per-row scales,
  and the whole of the two weight matrices, and it writes rows `2048 t … 2048 t + 2047` of the result.

  * An entry `(p, q)` of a block of the result depends only on row `p` of the row-indexed blocks: the row is scaled by
    its in-degree scale, multiplied by the first weight matrix (a sum over 64 features), passed through the leaky
    rectifier, scaled by its out-degree scale, and multiplied by the second weight matrix (a sum over 256 features).
    On the extended reals the changes of number format are the identity and each product accumulates from zero, so
    the entry is the specification's `dense` with the block's rows in place of the array's (`blockDense`,
    `payload_apply`).
  * Row `p` of point `t`'s blocks is row `2048 t + p` of the arrays, and the weight blocks are the matrices, so what
    point `t` writes back is block `t` of `denseArr` (`flushed_eq_denseArr`).
  * The 64 row blocks tile the array — row `r` lies in block `r / 2048` — so the array ends as `denseArr` (`arr0`).
-/
import proofs.«179570_j8117488190078_2_alg».proof.Proof.Gen.KernelIdeal.Frame
import proofs.«179570_j8117488190078_2_alg».proof.Proof.Spec
import Idealize.ShloMosaic.Lib.Pipeline.Value

noncomputable section
namespace Cert.KernelIdeal.KValue
open Idealize.ShloMosaic Idealize.ShloMosaic.TcCoe Idealize.SL.Sem Idealize.ShloMosaic.ValueIdx
open Cert.KernelIdeal Cert.KernelIdeal.Gen

/-! ## The two matrix products at an entry -/

/-- Entry `(p, q)` of the first product: row `p` of the left factor against column `q` of the right one,
    summed over the 64 input features. -/
theorem firstProduct_apply (A : FVec Ideal S2048x64 .bf16) (B : FVec Ideal S64x256 .bf16) (p : Fin 2048) (q : Fin 256) :
    matmul dot_S2048x64_S64x256_S2048x256_1_0_0_1_n_n none A B (constant (F := Ideal) S2048x256 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have hl : dot_S2048x64_S64x256_S2048x256_1_0_0_1_n_n.lhsIdx (ix2 p q) ((contrEquiv1 _ 64 rfl rfl).symm k) = ix2 p k := by
    funext ax; apply Fin.ext
    match ax with
    | ⟨0, _⟩ => simp [DotDims.lhsIdx, dot_S2048x64_S64x256_S2048x256_1_0_0_1_n_n]; rfl
    | ⟨1, _⟩ => simp [DotDims.lhsIdx, dot_S2048x64_S64x256_S2048x256_1_0_0_1_n_n]; exact hk
  have hr : dot_S2048x64_S64x256_S2048x256_1_0_0_1_n_n.rhsIdx (ix2 p q) ((contrEquiv1 _ 64 rfl rfl).symm k) = ix2 k q := by
    funext ax; apply Fin.ext
    match ax with
    | ⟨0, _⟩ => simp [DotDims.rhsIdx, dot_S2048x64_S64x256_S2048x256_1_0_0_1_n_n]; exact hk
    | ⟨1, _⟩ => simp [DotDims.rhsIdx, dot_S2048x64_S64x256_S2048x256_1_0_0_1_n_n]; rfl
  rw [hl, hr]

/-- Entry `(p, q)` of the second product, summed over the 256 hidden features. -/
theorem secondProduct_apply (A : FVec Ideal S2048x256 .bf16) (B : FVec Ideal S256x128 .bf16) (p : Fin 2048) (q : Fin 128) :
    matmul dot_S2048x256_S256x128_S2048x128_1_0_0_1_n_n none A B (constant (F := Ideal) S2048x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have hl : dot_S2048x256_S256x128_S2048x128_1_0_0_1_n_n.lhsIdx (ix2 p q) ((contrEquiv1 _ 256 rfl rfl).symm k) = ix2 p k := by
    funext ax; apply Fin.ext
    match ax with
    | ⟨0, _⟩ => simp [DotDims.lhsIdx, dot_S2048x256_S256x128_S2048x128_1_0_0_1_n_n]; rfl
    | ⟨1, _⟩ => simp [DotDims.lhsIdx, dot_S2048x256_S256x128_S2048x128_1_0_0_1_n_n]; exact hk
  have hr : dot_S2048x256_S256x128_S2048x128_1_0_0_1_n_n.rhsIdx (ix2 p q) ((contrEquiv1 _ 256 rfl rfl).symm k) = ix2 k q := by
    funext ax; apply Fin.ext
    match ax with
    | ⟨0, _⟩ => simp [DotDims.rhsIdx, dot_S2048x256_S256x128_S2048x128_1_0_0_1_n_n]; exact hk
    | ⟨1, _⟩ => simp [DotDims.rhsIdx, dot_S2048x256_S256x128_S2048x128_1_0_0_1_n_n]; rfl
  rw [hl, hr]

/-! ## A column of per-row scales spread across a row -/

/-- The one-column block of scales spread over 64 columns reads, in row `p`, that row's scale. -/
theorem rowScale64_apply (x : Vec Ideal S2048x1 .f32) (p : Fin 2048) (k : Fin 64) :
    broadcastTo S2048x64 (shapeCast S2048x1 x shapeCasts_S2048x1_S2048x1) broadcasts_S2048x1_S2048x64 (ix2 p k)
      = x (ix2 p (0 : Fin 1)) := by
  rw [shapeCast_self]
  refine broadcastTo_apply _ _ _ (ix2 p (0 : Fin 1)) fun a => ?_
  match a with
  | ⟨0, _⟩ => rfl
  | ⟨1, _⟩ => rfl

/-- The same over 256 columns. -/
theorem rowScale256_apply (x : Vec Ideal S2048x1 .f32) (p : Fin 2048) (k : Fin 256) :
    broadcastTo S2048x256 (shapeCast S2048x1 x shapeCasts_S2048x1_S2048x1) broadcasts_S2048x1_S2048x256 (ix2 p k)
      = x (ix2 p (0 : Fin 1)) := by
  rw [shapeCast_self]
  refine broadcastTo_apply _ _ _ (ix2 p (0 : Fin 1)) fun a => ?_
  match a with
  | ⟨0, _⟩ => rfl
  | ⟨1, _⟩ => rfl

/-- The rectifier as the body spells it (compare with the zero word, keep the entry or scale it by the slope word),
    entry by entry. -/
theorem rectifier_apply {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i
      = Cert.GnnSpec.leaky (y i) := rfl

/-! ## One row block of the result from the five input blocks -/

/-- Entry `(p, q)` of a 2048-row block of the result, from the block's 2048 rows of aggregated features `x0`, their
    in-degree scales `x1` and out-degree scales `x2`, and the two weight matrices: only row `p` of the row-indexed
    blocks is read. -/
def blockDense (x0 : Vec Ideal S2048x64 .f32) (x1 x2 : Vec Ideal S2048x1 .f32) (x3 : Vec Ideal S64x256 .f32)
    (x4 : Vec Ideal S256x128 .f32) (p : Fin 2048) (q : Fin 128) : EReal :=
  ∑ k' : Fin 256,
    (Cert.GnnSpec.leaky (∑ k : Fin 64, (x0 (ix2 p k) * x1 (ix2 p (0 : Fin 1))) * x3 (ix2 k k')) * x2 (ix2 p (0 : Fin 1)))
      * x4 (ix2 k' q)

/-- The body's arithmetic at an entry is `blockDense`: the format changes are the identity on extended reals and
    each product accumulates from the zero word. -/
theorem payload_apply (x0 : Vec Ideal S2048x64 .f32) (x1 x2 : Vec Ideal S2048x1 .f32) (x3 : Vec Ideal S64x256 .f32)
    (x4 : Vec Ideal S256x128 .f32) (p : Fin 2048) (q : Fin 128) :
    k0_pay1 (F := Ideal) x0 x1 x3 x2 x4 (ix2 p q) = blockDense x0 x1 x2 x3 x4 p q := by
  unfold k0_pay1 blockDense
  refine (secondProduct_apply _ _ p q).trans ?_
  refine Finset.sum_congr rfl fun k' _ => ?_
  refine congrArg (· * x4 (ix2 k' q)) ?_
  refine congrArg₂ (· * ·) ?_ (rowScale256_apply x2 p k')
  refine (rectifier_apply _ (ix2 p k')).trans (congrArg Cert.GnnSpec.leaky ?_)
  refine (firstProduct_apply _ _ p k').trans ?_
  refine Finset.sum_congr rfl fun k _ => ?_
  refine congrArg (· * x3 (ix2 k k')) ?_
  rw [shapeCast_self]
  exact congrArg (x0 (ix2 p k) * ·) (rowScale64_apply x1 p k)

variable (V : (c : Dev nD) → (b : Ref sig .tc) → Buf (Elt Ideal) ((c : Thread nD τ).loc b))

/-! ## From row blocks to the array

The grid has 64 points; point `t` works on rows `2048 t … 2048 t + 2047`: its blocks of the three row-indexed inputs
and of the result are block `t` along the rows, and its blocks of the two weight matrices are the whole matrices. -/

theorem zeroOffsets : (![0, 0] : Fin 2 → Nat) = fun _ => 0 := funext fun a => by fin_cases a <;> rfl

/-- What the body leaves in the result's block, entry by entry. -/
theorem bodyResult_eq (x0 : Vec Ideal S2048x64 .f32) (x1 x2 : Vec Ideal S2048x1 .f32) (x3 : Vec Ideal S64x256 .f32)
    (x4 : Vec Ideal S256x128 .f32) (p : Fin 2048) (q : Fin 128) :
    out0_5 (F := Ideal) x0 x1 x2 x3 x4 (ix2 p q) = blockDense x0 x1 x2 x3 x4 p q := by
  unfold out0_5
  rw [View.canon_unit_zero zeroOffsets]
  simp only [View.ld_unit_zero (S := S2048x64) zeroOffsets, View.ld_unit_zero (S := S2048x1) zeroOffsets,
    View.ld_unit_zero (S := S64x256) zeroOffsets, View.ld_unit_zero (S := S256x128) zeroOffsets]
  exact payload_apply x0 x1 x2 x3 x4 p q

/-- The block indices of the six windows at every grid point, decided over the 64 points. -/
theorem blockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row block of the result agrees with the specification at the rows it stands for, as soon as the input blocks
    are the corresponding rows of the arrays: an entry of row `n` depends only on row `n` of the aggregated features,
    on the two scales of row `n`, and on the weight matrices. -/
theorem blockDense_eq_denseArr (A : S131072x64.Idx → EReal) (din dout : S131072x1.Idx → EReal)
    (W1 : S64x256.Idx → EReal) (W2 : S256x128.Idx → EReal)
    (x0 : Vec Ideal S2048x64 .f32) (x1 x2 : Vec Ideal S2048x1 .f32) (x3 : Vec Ideal S64x256 .f32)
    (x4 : Vec Ideal S256x128 .f32) (p : Fin 2048) (q : Fin 128) (n : Fin 131072)
    (h0 : ∀ k : Fin 64, x0 (ix2 p k) = A (ix2 n k))
    (h1 : x1 (ix2 p (0 : Fin 1)) = din (ix2 n (0 : Fin 1)))
    (h2 : x2 (ix2 p (0 : Fin 1)) = dout (ix2 n (0 : Fin 1)))
    (h3 : ∀ (k : Fin 64) (k' : Fin 256), x3 (ix2 k k') = W1 (ix2 k k'))
    (h4 : ∀ (k' : Fin 256) (j : Fin 128), x4 (ix2 k' j) = W2 (ix2 k' j)) :
    blockDense x0 x1 x2 x3 x4 p q = Cert.GnnSpec.denseArr A din dout W1 W2 (ix2 n q) := by
  show _ = Cert.GnnSpec.dense _ _ _ _ _ n q
  unfold blockDense Cert.GnnSpec.dense Cert.GnnSpec.hidden
  simp only [h0, h1, h2, h3, h4]

/-- Row `p` of point `t`'s block of the aggregated features is row `2048 t + p` of the array. -/
theorem featureBlock_apply (c : Dev nD) (t : Fin cfg0.N) (p : Fin 2048) (k : Fin 64) (n : Fin 131072)
    (hn : n.val = 2048 * t.val + p.val) :
    (iblk0 (F := Ideal) V c 0 t : Vec Ideal S2048x64 .f32) (ix2 p k) = (V c main_v28 : S131072x64.Idx → EReal) (ix2 n k) := by
  obtain ⟨e0, e1, -⟩ := blockIndex_facts t
  unfold iblk0
  rw [View.read_apply]
  show V c main_v28 _ = V c main_v28 _
  congr 1
  funext a; apply Fin.ext
  match a with
  | ⟨0, _⟩ => show win0_0.index t (0 : Fin 2) * 2048 + 1 * p.val = n.val; rw [e0, hn]; omega
  | ⟨1, _⟩ => show win0_0.index t (1 : Fin 2) * 64 + 1 * k.val = k.val; rw [e1]; omega

/-- Row `p` of point `t`'s block of the in-degree scales is row `2048 t + p` of the column. -/
theorem inScaleBlock_apply (c : Dev nD) (t : Fin cfg0.N) (p : Fin 2048) (n : Fin 131072)
    (hn : n.val = 2048 * t.val + p.val) :
    (iblk0 (F := Ideal) V c 1 t : Vec Ideal S2048x1 .f32) (ix2 p (0 : Fin 1))
      = (V c main_v29 : S131072x1.Idx → EReal) (ix2 n (0 : Fin 1)) := by
  obtain ⟨-, -, e0, e1, -⟩ := blockIndex_facts t
  unfold iblk0
  rw [View.read_apply]
  show V c main_v29 _ = V c main_v29 _
  congr 1
  funext a; apply Fin.ext
  match a with
  | ⟨0, _⟩ => show win0_1.index t (0 : Fin 2) * 2048 + 1 * p.val = n.val; rw [e0, hn]; omega
  | ⟨1, _⟩ => show win0_1.index t (1 : Fin 2) * 1 + 1 * 0 = 0; rw [e1]

/-- Row `p` of point `t`'s block of the out-degree scales is row `2048 t + p` of the column. -/
theorem outScaleBlock_apply (c : Dev nD) (t : Fin cfg0.N) (p : Fin 2048) (n : Fin 131072)
    (hn : n.val = 2048 * t.val + p.val) :
    (iblk0 (F := Ideal) V c 2 t : Vec Ideal S2048x1 .f32) (ix2 p (0 : Fin 1))
      = (V c main_v30 : S131072x1.Idx → EReal) (ix2 n (0 : Fin 1)) := by
  obtain ⟨-, -, -, -, e0, e1, -⟩ := blockIndex_facts t
  unfold iblk0
  rw [View.read_apply]
  show V c main_v30 _ = V c main_v30 _
  congr 1
  funext a; apply Fin.ext
  match a with
  | ⟨0, _⟩ => show win0_2.index t (0 : Fin 2) * 2048 + 1 * p.val = n.val; rw [e0, hn]; omega
  | ⟨1, _⟩ => show win0_2.index t (1 : Fin 2) * 1 + 1 * 0 = 0; rw [e1]

/-- Every point's block of the first weight matrix is the whole matrix. -/
theorem firstWeightBlock_apply (c : Dev nD) (t : Fin cfg0.N) (k : Fin 64) (k' : Fin 256) :
    (iblk0 (F := Ideal) V c 3 t : Vec Ideal S64x256 .f32) (ix2 k k') = (V c main_arg2 : S64x256.Idx → EReal) (ix2 k k') := by
  obtain ⟨-, -, -, -, -, -, e0, e1, -⟩ := blockIndex_facts t
  unfold iblk0
  rw [View.read_apply]
  show V c main_arg2 _ = V c main_arg2 _
  congr 1
  funext a; apply Fin.ext
  match a with
  | ⟨0, _⟩ => show win0_3.index t (0 : Fin 2) * 64 + 1 * k.val = k.val; rw [e0]; omega
  | ⟨1, _⟩ => show win0_3.index t (1 : Fin 2) * 256 + 1 * k'.val = k'.val; rw [e1]; omega

/-- Every point's block of the second weight matrix is the whole matrix. -/
theorem secondWeightBlock_apply (c : Dev nD) (t : Fin cfg0.N) (k' : Fin 256) (j : Fin 128) :
    (iblk0 (F := Ideal) V c 4 t : Vec Ideal S256x128 .f32) (ix2 k' j) = (V c main_arg3 : S256x128.Idx → EReal) (ix2 k' j) := by
  obtain ⟨-, -, -, -, -, -, -, -, e0, e1, -⟩ := blockIndex_facts t
  unfold iblk0
  rw [View.read_apply]
  show V c main_arg3 _ = V c main_arg3 _
  congr 1
  funext a; apply Fin.ext
  match a with
  | ⟨0, _⟩ => show win0_4.index t (0 : Fin 2) * 256 + 1 * k'.val = k'.val; rw [e0]; omega
  | ⟨1, _⟩ => show win0_4.index t (1 : Fin 2) * 128 + 1 * j.val = j.val; rw [e1]; omega

/-- What point `t` writes back is block `t` of the specification's array. -/
theorem flushed_eq_denseArr (c : Dev nD) (t : Fin cfg0.N) :
    (dat0 (F := Ideal) V c).flushed 5 t
      = ((cfg0.win 5).blk t).view.read (Elt Ideal)
          (Cert.GnnSpec.denseArr (V c main_v28) (V c main_v29) (V c main_v30) (V c main_arg2) (V c main_arg3)) := by
  show (cfg0.win 5).cut (grid0.coords t) ((dat0 V c).after 5 t) = _
  rw [after0_5]
  funext j
  obtain ⟨p, q, rfl⟩ : ∃ (p : Fin 2048) (q : Fin 128), j = ix2 p q := ⟨j 0, j 1, eq_ix2 j⟩
  have ht : t.val < 64 := Nat.lt_of_lt_of_eq t.isLt N_0
  obtain ⟨-, -, -, -, -, -, -, -, -, -, e0, e1⟩ := blockIndex_facts t
  have hemb : ((cfg0.win 5).blk t).view.emb (ix2 p q)
      = (ix2 (⟨2048 * t.val + p.val, by omega⟩ : Fin 131072) q : S131072x128.Idx) := by
    funext a; apply Fin.ext
    match a with
    | ⟨0, _⟩ => show win0_5.index t (0 : Fin 2) * 2048 + 1 * p.val = 2048 * t.val + p.val; rw [e0]; omega
    | ⟨1, _⟩ => show win0_5.index t (1 : Fin 2) * 128 + 1 * q.val = q.val; rw [e1]; omega
  rw [View.read_apply, hemb]
  show out0_5 (F := Ideal) (iblk0 V c 0 t) (iblk0 V c 1 t) (iblk0 V c 2 t) (iblk0 V c 3 t) (iblk0 V c 4 t) (ix2 p q) = _
  rw [bodyResult_eq]
  exact blockDense_eq_denseArr (V c main_v28) (V c main_v29) (V c main_v30) (V c main_arg2) (V c main_arg3)
    (iblk0 V c 0 t) (iblk0 V c 1 t) (iblk0 V c 2 t) (iblk0 V c 3 t) (iblk0 V c 4 t) p q ⟨2048 * t.val + p.val, by omega⟩
    (fun k => featureBlock_apply V c t p k _ rfl) (inScaleBlock_apply V c t p _ rfl) (outScaleBlock_apply V c t p _ rfl)
    (fun k k' => firstWeightBlock_apply V c t k k') (fun k' j => secondWeightBlock_apply V c t k' j)

/-- An index of the result array lies in point `t`'s block iff each coordinate is in the block's range on its axis. -/
theorem mem_resultBlock (t : Fin cfg0.N) (i : S131072x128.Idx) :
    i ∈ ((cfg0.win 5).blk t).view.set
      ↔ ∀ a : Fin 2, win0_5.index t a * S2048x128.size a ≤ (i a).val ∧ (i a).val < win0_5.index t a * S2048x128.size a + S2048x128.size a := by
  show i ∈ ((View.whole main_v31).slice (win0_5.rect t)).set ↔ _
  rw [View.set_slice_whole, Rect.mem_set_unit]
  exact Iff.rfl

/-- Every row of the result is written back by some point: row `r` by point `r / 2048`. -/
theorem resultBlocks_cover (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hN : cfg0.N = 64 := N_0
  obtain ⟨-, -, -, -, -, -, -, -, -, -, e0, e1⟩ := blockIndex_facts ⟨(i 0).val / 2048, by rw [hN]; omega⟩
  refine ⟨⟨(i 0).val / 2048, by rw [hN]; omega⟩, flush0_5 _, ?_⟩
  rw [mem_resultBlock]
  intro a
  match a with
  | ⟨0, _⟩ =>
    show win0_5.index _ (0 : Fin 2) * 2048 ≤ (i 0).val ∧ (i 0).val < win0_5.index _ (0 : Fin 2) * 2048 + 2048
    rw [e0]; show (i 0).val / 2048 * 2048 ≤ (i 0).val ∧ (i 0).val < (i 0).val / 2048 * 2048 + 2048; omega
  | ⟨1, _⟩ =>
    show win0_5.index _ (1 : Fin 2) * 128 ≤ (i 1).val ∧ (i 1).val < win0_5.index _ (1 : Fin 2) * 128 + 128
    rw [e1]; omega

/-- After the 64 points the result array is the specification's, row by row. -/
theorem arr0 (c : Dev nD) :
    (dat0 (F := Ideal) V c).arrAt 5 cfg0.N
      = Cert.GnnSpec.denseArr (V c main_v28) (V c main_v29) (V c main_v30) (V c main_arg2) (V c main_arg3) :=
  (dat0 (F := Ideal) V c).arrAt_eq_of_cover 5 _ (fun t _ => flushed_eq_denseArr V c t) resultBlocks_cover

end Cert.KernelIdeal.KValue
end
-- ==== Proof.Region1.lean ====
/-
  The second region of the program: pooling over graphs and the two linear maps of the classifier.

  The region visits 32 grid points. Point `t` reads rows `4096 t … 4096 t + 4095` of the aggregated features `A2`
  (128 columns) and of the in-degree scaling `din` (one column), and the whole of the weight matrices `Wl` (128 × 64)
  and `Wc` (64 × 16); it writes rows `32 t … 32 t + 31` of the result (16 columns).

  A block of 4096 rows is 32 graphs of 128 nodes each: row `128 g + r` of the block is node `r` of the block's graph `g`,
  which is node `r` of graph `32 t + g` of the whole array. The body scales every entry by its row's `din`, applies the
  leaky rectifier, adds up the 128 rows of each graph column by column, scales by `2⁻⁷`, and multiplies by `Wl` and then
  by `Wc`. Entry `(p, q)` of the block that point `t` writes therefore depends only on rows
  `4096 t + 128 p … 4096 t + 128 p + 127` of `A2` and `din` — the 128 nodes of graph `32 t + p` — and on the weights, and it
  equals entry `(32 t + p, q)` of the specification's `headArr`.

  Four steps: (1) the body's arithmetic at an entry, as nested finite sums over the block's rows and the weights' rows;
  (2) the same sums once every block entry is replaced by the entry of the whole array it was read from: the
  specification at the entry's place in the whole result; (3) so what a grid point writes back is the corresponding block
  of the specification's array; (4) the 32 written blocks cover the 1024 rows of the result, hence the result array
  after the region is the specification's array. Every sum is a finite sum of extended reals taken in the same order on
  both sides, so no algebraic law beyond re-indexing is used.
-/
import proofs.«179570_j8117488190078_2_alg».proof.Proof.Gen.KernelIdeal.Frame
import proofs.«179570_j8117488190078_2_alg».proof.Proof.Spec
import Idealize.ShloMosaic.Lib.Pipeline.Value

noncomputable section
namespace Cert.KernelIdeal.KValue.PoolHead
open Idealize.ShloMosaic Idealize.ShloMosaic.TcCoe Idealize.SL.Sem Idealize.ShloMosaic.ValueIdx
open Cert.KernelIdeal Cert.KernelIdeal.Gen

/-! ## Step 1: the body's arithmetic at an entry -/

/-- Row `128 g + r` of a 4096-row block: node `r` of the block's graph `g`. -/
def blockRow (g : Fin 32) (r : Fin 128) : Fin 4096 := ⟨128 * g.val + r.val, by have := g.isLt; have := r.isLt; omega⟩

/-- Cutting the 4096 rows into 32 groups of 128 keeps the row-major order: entry `(g, r, k)` of the `[32, 128, 128]`
    arrangement is entry `(128 g + r, k)` of the `[4096, 128]` block. -/
theorem reshape_apply (v : FVec Ideal S4096x128 .f32) (h : S4096x128.ShapeCasts S32x128x128) (g : Fin 32) (r : Fin 128) (k : Fin 128) :
    shapeCast S32x128x128 v h (ix3 g r k) = v (ix2 (blockRow g r) k) := by
  refine shapeCast_apply v h (ix3 g r k) (ix2 (blockRow g r) k) ?_
  rw [Shape.rowMajor_val_two, Shape.rowMajor_val_three]
  show (128 * g.val + r.val) * 128 + k.val = (g.val * 128 + r.val) * 128 + k.val
  omega

/-- The sum over the middle axis of a `[32, 128, 128]` array, at `(g, k)`: the sum over `r` of the entries `(g, r, k)`. -/
theorem laneSum_apply (src : FVec Ideal S32x128x128 .f32) (h : S32x128x128.Reduces [1] S32x128) (hφ : FKind.Formats .f32)
    (hacc : (0x00000000#32 : BitVec 32) = FKind.add.neutral .f32 hφ) (g : Fin 32) (k : Fin 128) :
    multiReduction (F := Ideal) .add [1] S32x128 src 0x00000000#32 h hφ hacc (ix2 g k) = ∑ r : Fin 128, src (ix3 g r k) := by
  refine (Ideal.multiReduction_add_single src 0x00000000#32 h hφ hacc (ix2 g k)).trans ?_
  refine Finset.sum_congr rfl fun r _ => congrArg src ?_
  funext a; apply Fin.ext
  match a with
  | ⟨0, _⟩ => rfl
  | ⟨1, _⟩ => rfl
  | ⟨2, _⟩ => rfl

/-- The product of a `32 × 128` by a `128 × 64` matrix added onto zero, at `(p, k2)`: the sum over the shared index of the
    products of the entries. -/
theorem pool_matmul_apply (L : FVec Ideal S32x128 .bf16) (R : FVec Ideal S128x64 .bf16) (p : Fin 32) (k2 : Fin 64) :
    matmul dot_S32x128_S128x64_S32x64_1_0_0_1_n_n none L R (constant (F := Ideal) S32x64 .f32 0x00000000#32) (ix2 p k2)
      = ∑ k1 : Fin 128, L (ix2 p k1) * R (ix2 k1 k2) := by
  show FloatOps.matmul _ none L R _ (ix2 p k2) = _
  rw [Ideal.matmul_constant_zero_apply, ← Equiv.sum_comp (contrEquiv1 dot_S32x128_S128x64_S32x64_1_0_0_1_n_n 128 rfl rfl).symm]
  refine Finset.sum_congr rfl fun c _ => ?_
  have cv := contrEquiv1_symm_val dot_S32x128_S128x64_S32x64_1_0_0_1_n_n 128 rfl rfl c
  have hl : dot_S32x128_S128x64_S32x64_1_0_0_1_n_n.lhsIdx (ix2 p k2) ((contrEquiv1 _ 128 rfl rfl).symm c) = ix2 p c := by
    funext ax; apply Fin.ext
    match ax with
    | ⟨0, _⟩ => simp [DotDims.lhsIdx, dot_S32x128_S128x64_S32x64_1_0_0_1_n_n]; rfl
    | ⟨1, _⟩ => simp [DotDims.lhsIdx, dot_S32x128_S128x64_S32x64_1_0_0_1_n_n]; exact cv
  have hr : dot_S32x128_S128x64_S32x64_1_0_0_1_n_n.rhsIdx (ix2 p k2) ((contrEquiv1 _ 128 rfl rfl).symm c) = ix2 c k2 := by
    funext ax; apply Fin.ext
    match ax with
    | ⟨0, _⟩ => simp [DotDims.rhsIdx, dot_S32x128_S128x64_S32x64_1_0_0_1_n_n]; exact cv
    | ⟨1, _⟩ => simp [DotDims.rhsIdx, dot_S32x128_S128x64_S32x64_1_0_0_1_n_n]; rfl
  rw [hl, hr]

/-- The product of a `32 × 64` by a `64 × 16` matrix added onto zero, at `(p, q)`: the sum over the shared index of the
    products of the entries. -/
theorem class_matmul_apply (L : FVec Ideal S32x64 .bf16) (R : FVec Ideal S64x16 .bf16) (p : Fin 32) (q : Fin 16) :
    matmul dot_S32x64_S64x16_S32x16_1_0_0_1_n_n none L R (constant (F := Ideal) S32x16 .f32 0x00000000#32) (ix2 p q)
      = ∑ k2 : Fin 64, L (ix2 p k2) * R (ix2 k2 q) := by
  show FloatOps.matmul _ none L R _ (ix2 p q) = _
  rw [Ideal.matmul_constant_zero_apply, ← Equiv.sum_comp (contrEquiv1 dot_S32x64_S64x16_S32x16_1_0_0_1_n_n 64 rfl rfl).symm]
  refine Finset.sum_congr rfl fun c _ => ?_
  have cv := contrEquiv1_symm_val dot_S32x64_S64x16_S32x16_1_0_0_1_n_n 64 rfl rfl c
  have hl : dot_S32x64_S64x16_S32x16_1_0_0_1_n_n.lhsIdx (ix2 p q) ((contrEquiv1 _ 64 rfl rfl).symm c) = ix2 p c := by
    funext ax; apply Fin.ext
    match ax with
    | ⟨0, _⟩ => simp [DotDims.lhsIdx, dot_S32x64_S64x16_S32x16_1_0_0_1_n_n]; rfl
    | ⟨1, _⟩ => simp [DotDims.lhsIdx, dot_S32x64_S64x16_S32x16_1_0_0_1_n_n]; exact cv
  have hr : dot_S32x64_S64x16_S32x16_1_0_0_1_n_n.rhsIdx (ix2 p q) ((contrEquiv1 _ 64 rfl rfl).symm c) = ix2 c q := by
    funext ax; apply Fin.ext
    match ax with
    | ⟨0, _⟩ => simp [DotDims.rhsIdx, dot_S32x64_S64x16_S32x16_1_0_0_1_n_n]; exact cv
    | ⟨1, _⟩ => simp [DotDims.rhsIdx, dot_S32x64_S64x16_S32x16_1_0_0_1_n_n]; rfl
  rw [hl, hr]

/-- Comparing with the zero word, keeping the entry where it is at least zero and taking the slope word times the entry
    elsewhere, is the specification's leaky rectifier of the entry: the same two words, the same comparison. -/
theorem leaky_apply (v : FVec Ideal S4096x128 .f32) (i : S4096x128.Idx) :
    select (cmpf .oge v (broadcast S4096x128 (Scalar.ofBits (F := Ideal) .f32 0x00000000#32))) v
        (mulf (broadcast S4096x128 (Scalar.ofBits (F := Ideal) .f32 0x3C23D70A#32)) v) i
      = Cert.GnnSpec.leaky (v i) := rfl

/-- A block of features times the one-column block of scalings spread over the 128 columns, at `(n, k)`: the feature at
    `(n, k)` times row `n`'s scaling. -/
theorem scaled_apply (x0 : FVec Ideal S4096x128 .f32) (x1 : FVec Ideal S4096x1 .f32) (h0 : S4096x128.ShapeCasts S4096x128)
    (h1 : S4096x1.ShapeCasts S4096x1) (hb : S4096x1.Broadcasts S4096x128) (n : Fin 4096) (k : Fin 128) :
    mulf (shapeCast S4096x128 x0 h0) (broadcastTo S4096x128 (shapeCast S4096x1 x1 h1) hb) (ix2 n k)
      = x0 (ix2 n k) * x1 (ix2 n (0 : Fin 1)) := by
  rw [shapeCast_self, shapeCast_self]
  show x0 (ix2 n k) * broadcastTo S4096x128 x1 hb (ix2 n k) = _
  refine congrArg (x0 (ix2 n k) * ·) ?_
  refine broadcastTo_apply x1 hb (ix2 n k) (ix2 n (0 : Fin 1)) fun a => ?_
  match a with
  | ⟨0, _⟩ => rfl
  | ⟨1, _⟩ => rfl

/-- THE BODY AT AN ENTRY. Entry `(p, q)` of what the body computes from a block `x0` of features, a block `x1` of scalings
    and the weights `x2`, `x3`: over `k2` and `k1`, the rectified scaled features of the 128 rows `128 p + r` in column `k1`
    added up and scaled by `2⁻⁷`, times `x2 (k1, k2)`, summed, times `x3 (k2, q)`, summed. The format changes between the
    stages are the identity on extended reals. -/
theorem payload_apply (x0 : Vec Ideal S4096x128 .f32) (x1 : Vec Ideal S4096x1 .f32) (x2 : Vec Ideal S128x64 .f32)
    (x3 : Vec Ideal S64x16 .f32) (p : Fin 32) (q : Fin 16) :
    k1_pay1 (F := Ideal) x0 x1 x2 x3 (ix2 p q)
      = ∑ k2 : Fin 64, (∑ k1 : Fin 128,
          ((∑ r : Fin 128, Cert.GnnSpec.leaky (x0 (ix2 (blockRow p r) k1) * x1 (ix2 (blockRow p r) (0 : Fin 1)))) * Cert.GnnSpec.poolW)
            * x2 (ix2 k1 k2)) * x3 (ix2 k2 q) := by
  unfold k1_pay1
  dsimp only
  refine (class_matmul_apply _ _ p q).trans (Finset.sum_congr rfl fun k2 _ => ?_)
  refine congrArg (· * x3 (ix2 k2 q)) ?_
  refine (pool_matmul_apply _ _ p k2).trans (Finset.sum_congr rfl fun k1 _ => ?_)
  refine congrArg (· * x2 (ix2 k1 k2)) ?_
  refine congrArg (· * Cert.GnnSpec.poolW) ?_
  refine (laneSum_apply _ _ _ _ p k1).trans (Finset.sum_congr rfl fun r _ => ?_)
  refine (reshape_apply _ _ p r k1).trans ?_
  refine (leaky_apply _ _).trans (congrArg Cert.GnnSpec.leaky ?_)
  exact scaled_apply x0 x1 _ _ _ (blockRow p r) k1

/-! ## Step 2: a block's entry is the specification's entry at its place in the whole result -/

/-- Row `n` of the 4096-row block number `g0` of the node arrays: row `4096 g0 + n`. -/
def arrRow (g0 : Fin 32) (n : Fin 4096) : Fin 131072 := ⟨4096 * g0.val + n.val, by have := g0.isLt; have := n.isLt; omega⟩
/-- Row `p` of the 32-row block number `g0` of the result: graph `32 g0 + p`. -/
def outRow (g0 : Fin 32) (p : Fin 32) : Fin 1024 := ⟨32 * g0.val + p.val, by have := g0.isLt; have := p.isLt; omega⟩

/-- Node `r` of graph `32 g0 + p` is row `128 p + r` of block `g0`: `128 (32 g0 + p) + r = 4096 g0 + (128 p + r)`. -/
theorem node_outRow (g0 p : Fin 32) (r : Fin 128) : Cert.GnnSpec.node (outRow g0 p) r = arrRow g0 (blockRow p r) := by
  apply Fin.ext
  show 128 * (32 * g0.val + p.val) + r.val = 4096 * g0.val + (128 * p.val + r.val)
  omega

/-- When `x0` and `x1` are rows `4096 g0 …` of `A2` and `din` and `x2`, `x3` are `Wl`, `Wc`, entry `(p, q)` of the body's result
    is entry `(32 g0 + p, q)` of the specification: the two are the same nested sums term by term. -/
theorem block_value (A2 : S131072x128.Idx → EReal) (din : S131072x1.Idx → EReal) (Wl : S128x64.Idx → EReal) (Wc : S64x16.Idx → EReal)
    (g0 : Fin 32) (x0 : Vec Ideal S4096x128 .f32) (x1 : Vec Ideal S4096x1 .f32) (x2 : Vec Ideal S128x64 .f32) (x3 : Vec Ideal S64x16 .f32)
    (h0 : ∀ (n : Fin 4096) (k : Fin 128), x0 (ix2 n k) = A2 (ix2 (arrRow g0 n) k))
    (h1 : ∀ n : Fin 4096, x1 (ix2 n (0 : Fin 1)) = din (ix2 (arrRow g0 n) (0 : Fin 1)))
    (h2 : ∀ (k1 : Fin 128) (k2 : Fin 64), x2 (ix2 k1 k2) = Wl (ix2 k1 k2))
    (h3 : ∀ (k2 : Fin 64) (j : Fin 16), x3 (ix2 k2 j) = Wc (ix2 k2 j))
    (p : Fin 32) (q : Fin 16) :
    k1_pay1 (F := Ideal) x0 x1 x2 x3 (ix2 p q) = Cert.GnnSpec.headArr A2 din Wl Wc (ix2 (outRow g0 p) q) := by
  rw [payload_apply]
  show _ = Cert.GnnSpec.head (fun n k => A2 (ix2 n k)) (fun n => din (ix2 n (0 : Fin 1))) (fun k1 k2 => Wl (ix2 k1 k2))
    (fun k2 j => Wc (ix2 k2 j)) (outRow g0 p) q
  unfold Cert.GnnSpec.head Cert.GnnSpec.pooled
  dsimp only
  refine Finset.sum_congr rfl fun k2 _ => ?_
  rw [h3]
  refine congrArg (· * Wc (ix2 k2 q)) (Finset.sum_congr rfl fun k1 _ => ?_)
  rw [h2]
  refine congrArg (· * Wl (ix2 k1 k2)) (congrArg (· * Cert.GnnSpec.poolW) (Finset.sum_congr rfl fun r _ => ?_))
  rw [h0, h1, node_outRow]

/-- The same at any index `y` of the block and any index `i` of the result whose row is `32 g0` plus `y`'s row and whose
    column is `y`'s column. -/
theorem block_value_at (A2 : S131072x128.Idx → EReal) (din : S131072x1.Idx → EReal) (Wl : S128x64.Idx → EReal) (Wc : S64x16.Idx → EReal)
    (g0 : Fin 32) (x0 : Vec Ideal S4096x128 .f32) (x1 : Vec Ideal S4096x1 .f32) (x2 : Vec Ideal S128x64 .f32) (x3 : Vec Ideal S64x16 .f32)
    (h0 : ∀ (n : Fin 4096) (k : Fin 128), x0 (ix2 n k) = A2 (ix2 (arrRow g0 n) k))
    (h1 : ∀ n : Fin 4096, x1 (ix2 n (0 : Fin 1)) = din (ix2 (arrRow g0 n) (0 : Fin 1)))
    (h2 : ∀ (k1 : Fin 128) (k2 : Fin 64), x2 (ix2 k1 k2) = Wl (ix2 k1 k2))
    (h3 : ∀ (k2 : Fin 64) (j : Fin 16), x3 (ix2 k2 j) = Wc (ix2 k2 j))
    (y : S32x16.Idx) (i : S1024x16.Idx) (hi0 : (i 0).val = 32 * g0.val + (y 0).val) (hi1 : (i 1).val = (y 1).val) :
    k1_pay1 (F := Ideal) x0 x1 x2 x3 y = Cert.GnnSpec.headArr A2 din Wl Wc i := by
  obtain ⟨p, q, rfl⟩ : ∃ (p : Fin 32) (q : Fin 16), y = ix2 p q := ⟨y 0, y 1, eq_ix2 y⟩
  obtain rfl : i = ix2 (outRow g0 p) q := by
    funext a; apply Fin.ext
    match a with
    | ⟨0, _⟩ => exact hi0
    | ⟨1, _⟩ => exact hi1
  exact block_value A2 din Wl Wc g0 x0 x1 x2 x3 h0 h1 h2 h3 p q

/-! ## Step 3: what a grid point reads and what it writes back -/

/-- Where each window's block sits at grid point `t`: the two node arrays and the result move with `t` along the rows,
    the two weight matrices stay at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The feature block at point `t`: entry `(n, k)` is entry `(4096 t + n, k)` of the feature array. -/
theorem feat_block_apply (c : Dev nD) (t : Fin cfg1.N) (g0 : Fin 32) (hg : g0.val = t.val) (n : Fin 4096) (k : Fin 128) :
    (iblk1 (F := Ideal) V c 0 t : Vec Ideal S4096x128 .f32) (ix2 n k)
      = (V c main_v44 : S131072x128.Idx → EReal) (ix2 (arrRow g0 n) k) := by
  obtain ⟨e0, e1, -⟩ := index_facts t
  unfold iblk1
  rw [View.read_apply]
  show V c main_v44 _ = V c main_v44 _
  congr 1
  funext a; apply Fin.ext
  match a with
  | ⟨0, _⟩ => show win1_0.index t 0 * 4096 + 1 * n.val = 4096 * g0.val + n.val; rw [e0, hg]; omega
  | ⟨1, _⟩ => show win1_0.index t 1 * 128 + 1 * k.val = k.val; rw [e1]; omega

/-- The scaling block at point `t`: entry `(n, 0)` is entry `(4096 t + n, 0)` of the scaling array. -/
theorem deg_block_apply (c : Dev nD) (t : Fin cfg1.N) (g0 : Fin 32) (hg : g0.val = t.val) (n : Fin 4096) :
    (iblk1 (F := Ideal) V c 1 t : Vec Ideal S4096x1 .f32) (ix2 n (0 : Fin 1))
      = (V c main_v45 : S131072x1.Idx → EReal) (ix2 (arrRow g0 n) (0 : Fin 1)) := by
  obtain ⟨-, -, e2, e3, -⟩ := index_facts t
  unfold iblk1
  rw [View.read_apply]
  show V c main_v45 _ = V c main_v45 _
  congr 1
  funext a; apply Fin.ext
  match a with
  | ⟨0, _⟩ => show win1_1.index t 0 * 4096 + 1 * n.val = 4096 * g0.val + n.val; rw [e2, hg]; omega
  | ⟨1, _⟩ => show win1_1.index t 1 * 1 + 1 * 0 = 0; rw [e3]

/-- The first weight matrix is read whole at every point. -/
theorem lin_block_apply (c : Dev nD) (t : Fin cfg1.N) (k1 : Fin 128) (k2 : Fin 64) :
    (iblk1 (F := Ideal) V c 2 t : Vec Ideal S128x64 .f32) (ix2 k1 k2)
      = (V c main_arg4 : S128x64.Idx → EReal) (ix2 k1 k2) := by
  obtain ⟨-, -, -, -, e4, e5, -⟩ := index_facts t
  unfold iblk1
  rw [View.read_apply]
  show V c main_arg4 _ = V c main_arg4 _
  congr 1
  funext a; apply Fin.ext
  match a with
  | ⟨0, _⟩ => show win1_2.index t 0 * 128 + 1 * k1.val = k1.val; rw [e4]; omega
  | ⟨1, _⟩ => show win1_2.index t 1 * 64 + 1 * k2.val = k2.val; rw [e5]; omega

/-- The second weight matrix is read whole at every point. -/
theorem cls_block_apply (c : Dev nD) (t : Fin cfg1.N) (k2 : Fin 64) (j : Fin 16) :
    (iblk1 (F := Ideal) V c 3 t : Vec Ideal S64x16 .f32) (ix2 k2 j)
      = (V c main_arg5 : S64x16.Idx → EReal) (ix2 k2 j) := by
  obtain ⟨-, -, -, -, -, -, e6, e7, -⟩ := index_facts t
  unfold iblk1
  rw [View.read_apply]
  show V c main_arg5 _ = V c main_arg5 _
  congr 1
  funext a; apply Fin.ext
  match a with
  | ⟨0, _⟩ => show win1_3.index t 0 * 64 + 1 * k2.val = k2.val; rw [e6]; omega
  | ⟨1, _⟩ => show win1_3.index t 1 * 16 + 1 * j.val = j.val; rw [e7]; omega

/-- The body reads and writes its buffers whole: at offsets zero on both axes. -/
theorem zero_offsets : (![0, 0] : Fin 2 → Nat) = fun _ => 0 := funext fun a => by fin_cases a <;> rfl

/-- WHAT POINT `t` WRITES BACK is rows `32 t … 32 t + 31` of the specification's array: the body's result on the four
    blocks the point read, entry by entry, by step 2 with `g0 = t`. -/
theorem flushed_head (c : Dev nD) (t : Fin cfg1.N) :
    (dat1 (F := Ideal) V c).flushed 4 t
      = ((cfg1.win 4).blk t).view.read (Elt Ideal)
          (Cert.GnnSpec.headArr (V c main_v44) (V c main_v45) (V c main_arg4) (V c main_arg5)) := by
  show (cfg1.win 4).cut (grid1.coords t) ((dat1 V c).after 4 t) = _
  rw [after1_4]
  unfold out1_4
  rw [View.canon_unit_zero zero_offsets]
  simp only [View.ld_unit_zero (S := S4096x128) zero_offsets, View.ld_unit_zero (S := S4096x1) zero_offsets,
    View.ld_unit_zero (S := S128x64) zero_offsets, View.ld_unit_zero (S := S64x16) zero_offsets]
  obtain ⟨g0, hg⟩ : ∃ g0 : Fin 32, g0.val = t.val := ⟨⟨t.val, lt_of_lt_of_eq t.isLt N_1⟩, rfl⟩
  obtain ⟨-, -, -, -, -, -, -, -, e8, e9⟩ := index_facts t
  funext j
  refine block_value_at (V c main_v44) (V c main_v45) (V c main_arg4) (V c main_arg5) g0
    (iblk1 V c 0 t) (iblk1 V c 1 t) (iblk1 V c 2 t) (iblk1 V c 3 t)
    (feat_block_apply V c t g0 hg) (deg_block_apply V c t g0 hg) (lin_block_apply V c t) (cls_block_apply V c t)
    (win1_4.xinj (grid1.coords t) j) (((cfg1.win 4).blk t).view.emb j) ?_ ?_
  · show win1_4.index t 0 * 32 + 1 * (j 0).val = 32 * g0.val + (j 0).val
    rw [e8, hg]; omega
  · show win1_4.index t 1 * 16 + 1 * (j 1).val = (j 1).val
    rw [e9]; omega

/-! ## Step 4: the written blocks cover the result -/

/-- An index of the result is in point `t`'s block iff each coordinate is in the block's range on its axis. -/
theorem mem_head_block (t : Fin cfg1.N) (i : S1024x16.Idx) :
    i ∈ ((cfg1.win 4).blk t).view.set
      ↔ ∀ a : Fin 2, win1_4.index t a * S32x16.size a ≤ (i a).val ∧ (i a).val < win1_4.index t a * S32x16.size a + S32x16.size a := by
  show i ∈ ((View.whole main_v46).slice (win1_4.rect t)).set ↔ _
  rw [View.set_slice_whole, Rect.mem_set_unit]
  exact Iff.rfl

/-- Row `r` of the result is written by point `r / 32`, and every point writes its block back. -/
theorem head_blocks_cover (i : S1024x16.Idx) :
    ∃ t : Fin cfg1.N, (cfg1.win 4).flush t = true ∧ i ∈ ((cfg1.win 4).blk t).view.set := by
  have hi0 : (i 0).val < 1024 := (i 0).isLt
  have hi1 : (i 1).val < 16 := (i 1).isLt
  obtain ⟨t, ht⟩ : ∃ t : Fin cfg1.N, t.val = (i 0).val / 32 :=
    ⟨⟨(i 0).val / 32, lt_of_lt_of_eq (by omega) N_1.symm⟩, rfl⟩
  obtain ⟨-, -, -, -, -, -, -, -, e8, e9⟩ := index_facts t
  refine ⟨t, flush1_4 t, ?_⟩
  rw [mem_head_block]
  intro a
  match a with
  | ⟨0, _⟩ =>
    show win1_4.index t 0 * 32 ≤ (i 0).val ∧ (i 0).val < win1_4.index t 0 * 32 + 32
    rw [e8, ht]; omega
  | ⟨1, _⟩ =>
    show win1_4.index t 1 * 16 ≤ (i 1).val ∧ (i 1).val < win1_4.index t 1 * 16 + 16
    rw [e9]; omega

end Cert.KernelIdeal.KValue.PoolHead

namespace Cert.KernelIdeal.KValue
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- THE RESULT ARRAY AFTER THE REGION is the specification's classifier output of the arrays the region found: every
    point writes its block of it, and the blocks cover the array. -/
theorem arr1 (c : Dev nD) :
    (dat1 (F := Ideal) V c).arrAt 4 cfg1.N
      = Cert.GnnSpec.headArr (V c main_v44) (V c main_v45) (V c main_arg4) (V c main_arg5) :=
  (dat1 V c).arrAt_eq_of_cover 4 _ (fun t _ => PoolHead.flushed_head V c t) PoolHead.head_blocks_cover

end Cert.KernelIdeal.KValue
end
-- ==== Proof.Consts.lean ====
/-
  Two single-precision words as the reals they denote, and a per-node vector laid out as a one-column array.

  `0x43000000` is `128` and `0x3C000000` is `2⁻⁷ = 1/128`, both exactly: dividing by the first and multiplying by the second
  are the same operation on every extended real.
-/
import Idealize.ShloMosaic.PureOps.Ideal
import Idealize.ShloMosaic.Lib.ValueIdx
import proofs.«179570_j8117488190078_2_alg».proof.Proof.Spec

noncomputable section

namespace Cert.GnnSpec

open Idealize.ShloMosaic Idealize.ShloMosaic.ValueIdx

/-- The divisor of the mean over a graph's nodes denotes the real `128`. -/
theorem ofBits_128 : Ideal.ofBits .f32 0x43000000#32 = ((128 : ℝ) : EReal) := by
  simp [Ideal.ofBits, Ideal.ieee, -EReal.coe_mul]; norm_num

/-- The pooling scale denotes the real `1/128`. -/
theorem poolW_eq : poolW = ((1 / 128 : ℝ) : EReal) := by
  unfold poolW
  simp [Ideal.ofBits, Ideal.ieee, -EReal.coe_mul]; norm_num

/-- Dividing by the word of `128` is multiplying by the pooling scale, on every extended real. -/
theorem div_128 (x : EReal) : Ideal.div x (Ideal.ofBits .f32 0x43000000#32) = x * poolW := by
  rw [ofBits_128, poolW_eq, Ideal.div_coe (by norm_num : (128 : ℝ) ≠ 0)]

/-- A vector with one entry per node as an array of one column. -/
def colArr (v : (⟨1, ![131072]⟩ : Shape).Idx → EReal) : (⟨2, ![131072, 1]⟩ : Shape).Idx → EReal :=
  fun i => v (ix1 (⟨(i 0).val, idx2_lt0 i⟩ : Fin 131072))

theorem colArr_apply (v : (⟨1, ![131072]⟩ : Shape).Idx → EReal) (n : Fin 131072) (z : Fin 1) :
    colArr v (ix2 n z) = v (ix1 n) := rfl

end Cert.GnnSpec

end
-- ==== Proof.RefMid.lean ====
/-
  The reference's dense chain between its two aggregations, entry by entry.

  Entry `(n, j)` of the chain's result is a sum over the 256 hidden features of the rectified, out-degree-scaled hidden
  activation of row `n` times the second weight matrix, and each hidden activation is a sum over the 64 input features of the
  in-degree-scaled aggregate of row `n` times the first weight matrix: the specification's `dense`. The two products are plain
  matrix products, read at an entry as sums over the contracted coordinate; the per-node factors are spread along the columns, so
  at `(n, k)` they read the factor of node `n`; the rectifier acts entry by entry.
-/
import proofs.«179570_j8117488190078_2_alg».proof.Proof.RefVal
import proofs.«179570_j8117488190078_2_alg».proof.Proof.Consts
import Idealize.ShloMosaic.Lib.StackMember
import Idealize.ShloMosaic.Lib.Pipeline.Value

noncomputable section

namespace Cert.ReferenceIdeal.RefRead

open Cert.ReferenceIdeal Cert.ReferenceIdeal.Gen Cert.ReferenceIdeal.RefVal Idealize.ShloMosaic Idealize.ShloMosaic.ValueIdx
open Cert.GnnSpec

/-- A per-node factor spread along 64 columns reads, at `(n, k)`, the factor of node `n`. -/
theorem col64_apply (v : FVec Ideal S131072 .f32) (n : Fin 131072) (k : Fin 64) : col64 v (ix2 n k) = v (ix1 n) := by
  unfold col64
  rw [broadcastInDim_apply _ _ _ (ix2 n k) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

/-- The same along 256 columns. -/
theorem col256_apply (v : FVec Ideal S131072 .f32) (n : Fin 131072) (k : Fin 256) : col256 v (ix2 n k) = v (ix1 n) := by
  unfold col256
  rw [broadcastInDim_apply _ _ _ (ix2 n k) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

/-- The same along 128 columns. -/
theorem col128_apply (v : FVec Ideal S131072 .f32) (n : Fin 131072) (k : Fin 128) : col128 v (ix2 n k) = v (ix1 n) := by
  unfold col128
  rw [broadcastInDim_apply _ _ _ (ix2 n k) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

/-- The rectifier on 256 columns acts entry by entry. -/
theorem lrelu256_apply (x : FVec Ideal S131072x256 .f32) (i : S131072x256.Idx) : lrelu256 x i = leaky (x i) := rfl

/-- The rectifier on 128 columns acts entry by entry. -/
theorem lrelu128_apply (x : FVec Ideal S131072x128 .f32) (i : S131072x128.Idx) : lrelu128 x i = leaky (x i) := rfl

/-- The reference's dense chain is the specification's, with the degree factors laid out as columns. -/
theorem mid_eq (A : FVec Ideal S131072x64 .f32) (i7 i6 : FVec Ideal S131072 .f32) (W1 : FVec Ideal S64x256 .f32)
    (W2 : FVec Ideal S256x128 .f32) :
    mid A i7 i6 W1 W2 = denseArr A (colArr i7) (colArr i6) W1 W2 := by
  funext i
  obtain ⟨n, j, rfl⟩ : ∃ (n : Fin 131072) (j : Fin 128), i = ix2 n j := ⟨i 0, i 1, eq_ix2 i⟩
  unfold mid
  rw [show dot_S131072x256_S256x128_S131072x128_1_0_0_1_n_n = DotDims.plain 131072 256 128 from rfl,
    StackMember.dotGeneral_plain_apply]
  show _ = dense _ _ _ _ _ n j
  unfold Cert.GnnSpec.dense
  refine Finset.sum_congr rfl fun k' _ => ?_
  refine congrArg (· * W2 (ix2 k' j)) ?_
  rw [mulf_apply, col256_apply, lrelu256_apply]
  unfold Cert.GnnSpec.hidden
  refine congrArg (fun t => leaky t * i6 (ix1 n)) ?_
  rw [show dot_S131072x64_S64x256_S131072x256_1_0_0_1_n_n = DotDims.plain 131072 64 256 from rfl,
    StackMember.dotGeneral_plain_apply]
  refine Finset.sum_congr rfl fun k _ => ?_
  rw [mulf_apply, col64_apply]
  rfl

end Cert.ReferenceIdeal.RefRead

end
-- ==== Proof.Pool.lean ====
/-
  The pooling step of the reference, read index by index.

  The reference sums the 128 nodes of every graph by an accumulating scatter: node `n` (a row of 128 features) is added
  into the row of the graph it belongs to, and that graph is computed as the floor division of the node's number by 128
  on 32-bit signed words: the truncating quotient, lowered by one when the signs of dividend and divisor differ and the
  remainder is not zero.

  (A) A node number `n` is below `2¹⁷`, so its word is non-negative and reads back as `n`. The signed quotient by 128 is then
      the quotient of the numbers, `n / 128`. The correction never applies: for `n = 0` the remainder is zero, and for
      `n ≠ 0` the dividend and the divisor are both positive, so their signs agree.
  (B) With such indices, update entry `(n, c)` starts at operand row `n / 128`, column 0, and its window coordinate is
      `(0, c)`; it therefore lands on operand entry `(n / 128, c)`, always inside the operand. The update entries that land
      on `(g, k)` are exactly `(128 g + r, k)` for `r < 128` — `r ↦ 128 g + r` and `n ↦ n mod 128` are inverse bijections between
      `{0, …, 127}` and the rows `n` with `n / 128 = g` — so the scatter adds to `(g, k)` the sum of those 128 entries.
-/
import Idealize.ShloMosaic.PureOps.Ideal
import Idealize.ShloMosaic.PureOps.Ideal.Laws
import Idealize.ShloMosaic.Lib.ValueIdx
import proofs.«179570_j8117488190078_2_alg».proof.Proof.Spec

noncomputable section

namespace Cert.GnnPool

open Idealize.ShloMosaic Idealize.ShloMosaic.ValueIdx

/-- The dimension numbers of the pooling scatter: update row `n` (128 columns wide) is added into the operand row its index names. -/
def dPool : ScatterDims ⟨2, ![1024, 128]⟩ ⟨2, ![131072, 1]⟩ ⟨2, ![131072, 128]⟩ where
  updateWindowDims := [1]
  insertedWindowDims := [0]
  scatterDimsToOperandDims := [0]
  indexVectorDim := 1

/-- The graph of every node, as the reference computes it: node index divided by 128 with the sign correction of a floor division. -/
def gidOf (h : (⟨0, ![]⟩ : Shape).BroadcastsInDim ⟨1, ![131072]⟩ (![] : Fin 0 → Fin 1)) : IVec ⟨1, ![131072]⟩ 32 :=
  let x : IVec ⟨1, ![131072]⟩ 32 := iotaInDim ⟨1, ![131072]⟩ 32 0
  let y : IVec ⟨0, ![]⟩ 32 := id (constantI ⟨0, ![]⟩ 32 128#32)
  let q : IVec ⟨1, ![131072]⟩ 32 := Host.divsi x (broadcastInDim ⟨1, ![131072]⟩ ![] h y)
  select
    (andi (cmpi .ne (signi x) (broadcastInDim ⟨1, ![131072]⟩ ![] h (signi y)))
      (cmpi .ne (Host.remsi x (broadcastInDim ⟨1, ![131072]⟩ ![] h y))
        (broadcastInDim ⟨1, ![131072]⟩ ![] h (constantI ⟨0, ![]⟩ 32 0#32))))
    (subi q (broadcastInDim ⟨1, ![131072]⟩ ![] h (constantI ⟨0, ![]⟩ 32 1#32))) q

/-! ## (A) The floor division of a node index by 128, on 32-bit words -/

/-- The sign word of a 32-bit word: `0`, `-1` or `1`. -/
def signWord (x : BitVec 32) : BitVec 32 := if x = 0 then 0 else if x.msb then -1 else 1

/-- The word of a number below `2¹⁷` reads back as that number and has a clear sign bit. -/
theorem toNat_word (n : ℕ) (hn : n < 131072) : (BitVec.ofNat 32 n).toNat = n := by
  rw [BitVec.toNat_ofNat]; exact Nat.mod_eq_of_lt (by omega)

theorem msb_word (n : ℕ) (hn : n < 131072) : (BitVec.ofNat 32 n).msb = false := by
  rw [BitVec.msb_eq_false_iff_two_mul_lt, toNat_word n hn]; omega

/-- Dividing by 128 never meets a corner of the signed division. -/
theorem not_corner_128 (x : BitVec 32) : ¬ IntOp.SDivCorner x 128#32 := by
  unfold IntOp.SDivCorner
  rintro (h | ⟨-, h⟩) <;> exact absurd h (by decide)

/-- The signed quotient of a non-negative word by 128 is the quotient of the numbers. -/
theorem quotient_word (n : ℕ) (hn : n < 131072) :
    IntOp.divsi .host (BitVec.ofNat 32 n) 128#32 = BitVec.ofNat 32 (n / 128) := by
  rw [IntOp.divsi, if_neg (not_corner_128 _), BitVec.sdiv_eq, msb_word n hn, show (128#32 : BitVec 32).msb = false from by decide]
  dsimp only
  rw [BitVec.udiv_eq]
  apply BitVec.eq_of_toNat_eq
  rw [BitVec.toNat_udiv, toNat_word n hn, toNat_word (n / 128) (by omega)]
  rfl

/-- The correction of the floor division never fires on a non-negative dividend: at zero the remainder is zero,
    elsewhere the two signs agree. -/
theorem correction_word (n : ℕ) (hn : n < 131072) :
    IntOp.andi (IntOp.cmpi .ne (signWord (BitVec.ofNat 32 n)) (signWord 128#32))
      (IntOp.cmpi .ne (IntOp.remsi .host (BitVec.ofNat 32 n) 128#32) 0#32) = 0#1 := by
  by_cases h0 : n = 0
  · subst h0; decide
  · have hx0 : BitVec.ofNat 32 n ≠ 0 := fun h => h0 (by
      have := congrArg BitVec.toNat h; rw [toNat_word n hn] at this; simpa using this)
    have hs : signWord (BitVec.ofNat 32 n) = 1 := by
      unfold signWord; rw [if_neg hx0, msb_word n hn]; rfl
    rw [hs, show signWord 128#32 = 1 from by decide, show IntOp.cmpi .ne (1 : BitVec 32) 1 = 0#1 from by decide]
    exact BitVec.zero_and

/-- (A) node `n`'s graph is `n / 128`. -/
theorem gidOf_apply (h : (⟨0, ![]⟩ : Shape).BroadcastsInDim ⟨1, ![131072]⟩ (![] : Fin 0 → Fin 1)) (n : Fin 131072) :
    gidOf h (ix1 n) = BitVec.ofNat 32 (n.val / 128) := by
  show Scalar.select
      (IntOp.andi (IntOp.cmpi .ne (signWord (BitVec.ofNat 32 n.val)) (signWord 128#32))
        (IntOp.cmpi .ne (IntOp.remsi .host (BitVec.ofNat 32 n.val) 128#32) 0#32))
      (IntOp.subi (IntOp.divsi .host (BitVec.ofNat 32 n.val) 128#32) 1#32)
      (IntOp.divsi .host (BitVec.ofNat 32 n.val) 128#32) = _
  rw [correction_word n.val n.isLt, quotient_word n.val n.isLt]
  exact if_neg (by decide)

/-! ## (B) The pooling scatter -/

/-- Update entry `(n, c)` starts, along the rows, at the row its scatter index names (read signed) … -/
theorem start_row (idx : IVec ⟨2, ![131072, 1]⟩ 32) (n : Fin 131072) (c : Fin 128) :
    dPool.start (ix2 n c) idx (0 : Fin 2) = (idx (ix2 n (0 : Fin 1))).toInt := by
  unfold ScatterDims.start
  rw [dif_pos (by decide)]
  congr 2
  funext b; apply Fin.ext
  match b with
  | ⟨0, _⟩ => rfl
  | ⟨1, _⟩ => rfl

/-- … and, along the columns, at column 0; -/
theorem start_col (idx : IVec ⟨2, ![131072, 1]⟩ 32) (n : Fin 131072) (c : Fin 128) :
    dPool.start (ix2 n c) idx (1 : Fin 2) = 0 := by
  unfold ScatterDims.start
  rw [dif_neg (by decide)]

/-- its window coordinate is 0 along the rows and its own column along the columns. -/
theorem window_row (n : Fin 131072) (c : Fin 128) : dPool.window (ix2 n c) (0 : Fin 2) = 0 := by
  unfold ScatterDims.window
  rw [dif_neg (by decide)]

theorem window_col (n : Fin 131072) (c : Fin 128) : dPool.window (ix2 n c) (1 : Fin 2) = c.val := by
  unfold ScatterDims.window
  rw [dif_pos (by decide)]
  rfl

/-- So update entry `(n, c)` lands on operand entry `(n / 128, c)`, which is inside the operand. -/
theorem resultIdx_pool (idx : IVec ⟨2, ![131072, 1]⟩ 32)
    (hidx : ∀ n : Fin 131072, (idx (ix2 n (0 : Fin 1))).toInt = ((n.val / 128 : ℕ) : ℤ)) (n : Fin 131072) (c : Fin 128) :
    dPool.resultIdx? (ix2 n c) idx
      = some (ix2 (⟨n.val / 128, by have := n.isLt; omega⟩ : Fin 1024) c) := by
  have hn := n.isLt
  have hc := c.isLt
  have H : ∀ a : Fin 2, 0 ≤ dPool.start (ix2 n c) idx a + dPool.window (ix2 n c) a
      ∧ dPool.start (ix2 n c) idx a + dPool.window (ix2 n c) a < (⟨2, ![1024, 128]⟩ : Shape).size a := by
    intro a
    match a with
    | ⟨0, _⟩ =>
      show 0 ≤ dPool.start (ix2 n c) idx (0 : Fin 2) + dPool.window (ix2 n c) (0 : Fin 2)
        ∧ dPool.start (ix2 n c) idx (0 : Fin 2) + dPool.window (ix2 n c) (0 : Fin 2) < (1024 : ℕ)
      rw [start_row, window_row, hidx]; omega
    | ⟨1, _⟩ =>
      show 0 ≤ dPool.start (ix2 n c) idx (1 : Fin 2) + dPool.window (ix2 n c) (1 : Fin 2)
        ∧ dPool.start (ix2 n c) idx (1 : Fin 2) + dPool.window (ix2 n c) (1 : Fin 2) < (128 : ℕ)
      rw [start_col, window_col]; omega
  unfold ScatterDims.resultIdx?
  rw [dif_pos H]
  congr 1
  funext a; apply Fin.ext
  match a with
  | ⟨0, _⟩ =>
    show (dPool.start (ix2 n c) idx (0 : Fin 2) + dPool.window (ix2 n c) (0 : Fin 2)).toNat = n.val / 128
    rw [start_row, window_row, hidx]; omega
  | ⟨1, _⟩ =>
    show (dPool.start (ix2 n c) idx (1 : Fin 2) + dPool.window (ix2 n c) (1 : Fin 2)).toNat = c.val
    rw [start_col, window_col]; omega

/-- (B) with scatter indices that send update row `n` to operand row `n / 128`, the accumulating scatter adds to entry
    `(g, k)` exactly the 128 update entries `(128 g + r, k)`. -/
theorem scatterAdd_pool (x : (⟨2, ![1024, 128]⟩ : Shape).Idx → EReal) (idx : IVec ⟨2, ![131072, 1]⟩ 32)
    (upd : (⟨2, ![131072, 128]⟩ : Shape).Idx → EReal)
    (hidx : ∀ n : Fin 131072, (idx (ix2 n (0 : Fin 1))).toInt = ((n.val / 128 : ℕ) : ℤ)) (g : Fin 1024) (k : Fin 128) :
    Ideal.hostScatterAdd dPool x idx upd (ix2 g k) = x (ix2 g k) + ∑ r : Fin 128, upd (ix2 (Cert.GnnSpec.node g r) k) := by
  unfold Ideal.hostScatterAdd
  refine congrArg (x (ix2 g k) + ·) (Eq.symm ?_)
  have hg := g.isLt
  refine Finset.sum_nbij' (fun r : Fin 128 => (ix2 (Cert.GnnSpec.node g r) k : (⟨2, ![131072, 128]⟩ : Shape).Idx))
    (fun j : (⟨2, ![131072, 128]⟩ : Shape).Idx => (⟨(j 0).val % 128, Nat.mod_lt _ (by decide)⟩ : Fin 128)) ?_ ?_ ?_ ?_ ?_
  · intro r _
    have hr := r.isLt
    rw [Finset.mem_filter]
    refine ⟨Finset.mem_univ _, ?_⟩
    rw [resultIdx_pool idx hidx]
    congr 2
    apply Fin.ext
    show (128 * g.val + r.val) / 128 = g.val
    omega
  · intro j _; exact Finset.mem_univ _
  · intro r _
    have hr := r.isLt
    apply Fin.ext
    show (128 * g.val + r.val) % 128 = r.val
    omega
  · intro j hj
    obtain ⟨n, c, rfl⟩ : ∃ (n : Fin 131072) (c : Fin 128), j = ix2 n c := ⟨j 0, j 1, eq_ix2 j⟩
    rw [Finset.mem_filter, resultIdx_pool idx hidx] at hj
    have e := Option.some.inj hj.2
    have e0 : n.val / 128 = g.val := congrArg Fin.val (congrFun e 0)
    have e1 : c = k := congrFun e 1
    subst e1
    have hn := n.isLt
    show ix2 (Cert.GnnSpec.node g ⟨n.val % 128, _⟩) c = ix2 n c
    congr 1
    apply Fin.ext
    show 128 * g.val + n.val % 128 = n.val
    omega
  · intro r _; rfl

end Cert.GnnPool

end
-- ==== Proof.RefTail.lean ====
/-
  The reference's head, entry by entry.

  The head scales row `n` of the second aggregate by node `n`'s in-degree factor, applies the leaky rectifier, adds every
  node's row into the row of its graph (node `n` belongs to graph `n / 128`, so graph `g` receives exactly the rows
  `128 g … 128 g + 127`), divides by `128`, and multiplies by the two head matrices. Starting the accumulation from zero and
  dividing by `128` — the same as multiplying by `2⁻⁷` on every extended real — entry `(g, k)` after the division is the
  specification's `pooled`; the two matrix products, read at an entry as sums over the contracted coordinate, then give the
  specification's `head` with the degree factors laid out as a column.
-/
import proofs.«179570_j8117488190078_2_alg».proof.Proof.RefMid
import proofs.«179570_j8117488190078_2_alg».proof.Proof.Pool

noncomputable section

namespace Cert.ReferenceIdeal.RefRead

open Cert.ReferenceIdeal Cert.ReferenceIdeal.Gen Cert.ReferenceIdeal.RefVal Idealize.ShloMosaic Idealize.ShloMosaic.ValueIdx
open Cert.GnnSpec

/-- The reference's node-to-graph map is the one the pooling lemmas are stated for. -/
theorem gid_eq : (gid : IVec S131072 32) = Cert.GnnPool.gidOf bcast_S_S131072 := rfl

/-- The reference's pooling scatter has the pooling lemmas' dimension numbers: update row `n` goes to the operand row its
    index names. -/
theorem scatter_eq : scatter_S1024x128_S131072x1_S131072x128_1_0_0_1 = Cert.GnnPool.dPool := rfl

/-- A natural number below `1024`, written as a 32-bit word and read back signed, is itself. -/
theorem toInt_ofNat_small (q : Nat) (hq : q < 1024) : (BitVec.ofNat 32 q).toInt = (q : ℤ) := by
  rw [BitVec.toInt_eq_toNat_cond, BitVec.toNat_ofNat, Nat.mod_eq_of_lt (by omega), if_pos (by omega)]

/-- The scatter index of update row `n`, read signed, is `n / 128`: the graph of node `n`. -/
theorem gid_col_toInt (n : Fin 131072) :
    ((broadcastInDim S131072x1 ![0] bcast_S131072_S131072x1_0 (gid : IVec S131072 32)) (ix2 n (0 : Fin 1))).toInt
      = ((n.val / 128 : ℕ) : ℤ) := by
  rw [broadcastInDim_apply _ _ _ (ix2 n (0 : Fin 1)) (ix1 n) (fun a => by match a with | ⟨0, _⟩ => rfl), gid_eq,
    Cert.GnnPool.gidOf_apply]
  exact toInt_ofNat_small _ (by have := n.isLt; omega)

/-- The array the accumulation starts from is zero at every entry. -/
theorem zero_splat_apply (i : S1024x128.Idx) :
    (broadcastInDim S1024x128 ![] bcast_S_S1024x128 (constant (F := Ideal) S_ .f32 0x00000000#32)) i = 0 := by
  rw [broadcastInDim_apply _ _ _ i ix0 (fun a => a.elim0)]
  exact Ideal.ofBits_zero_f32

/-- Entry `(g, k)` of the pooled activations: the rectified scaled entries `(128 g + r, k)` of the 128 nodes of graph `g`
    added onto zero, divided by `128`: the specification's `pooled`. -/
theorem pooled_apply (A2 : FVec Ideal S131072x128 .f32) (i7 : FVec Ideal S131072 .f32) (g : Fin 1024) (k : Fin 128) :
    Host.divf
        (Host.scatterAdd scatter_S1024x128_S131072x1_S131072x128_1_0_0_1
          (broadcastInDim S1024x128 ![] bcast_S_S1024x128 (constant S_ .f32 0x00000000#32))
          (broadcastInDim S131072x1 ![0] bcast_S131072_S131072x1_0 gid)
          (lrelu128 (mulf A2 (col128 i7))))
        (broadcastInDim S1024x128 ![] bcast_S_S1024x128 (constant S_ .f32 0x43000000#32)) (ix2 g k)
      = Cert.GnnSpec.pooled (fun n k => A2 (ix2 n k)) (fun n => colArr i7 (ix2 n (0 : Fin 1))) g k := by
  show Ideal.div (Ideal.hostScatterAdd scatter_S1024x128_S131072x1_S131072x128_1_0_0_1 _ _ _ (ix2 g k))
      ((broadcastInDim S1024x128 ![] bcast_S_S1024x128 (constant (F := Ideal) S_ .f32 0x43000000#32)) (ix2 g k)) = _
  rw [broadcastInDim_apply _ _ _ (ix2 g k) ix0 (fun a => a.elim0)]
  show Ideal.div _ (Ideal.ofBits .f32 0x43000000#32) = _
  rw [div_128, scatter_eq, Cert.GnnPool.scatterAdd_pool _ _ _ gid_col_toInt g k, zero_splat_apply, zero_add]
  unfold Cert.GnnSpec.pooled
  refine congrArg (· * poolW) (Finset.sum_congr rfl fun r _ => ?_)
  rw [lrelu128_apply, mulf_apply, col128_apply]
  rfl

/-- The reference's head is the specification's, with the in-degree factors laid out as a column. -/
theorem tail_eq (A2 : FVec Ideal S131072x128 .f32) (i7 : FVec Ideal S131072 .f32) (Wl : FVec Ideal S128x64 .f32) (Wc : FVec Ideal S64x16 .f32) :
    tail A2 i7 Wl Wc = headArr A2 (colArr i7) Wl Wc := by
  funext i
  obtain ⟨g, j, rfl⟩ : ∃ (g : Fin 1024) (j : Fin 16), i = ix2 g j := ⟨i 0, i 1, eq_ix2 i⟩
  unfold tail
  rw [show dot_S1024x64_S64x16_S1024x16_1_0_0_1_n_n = DotDims.plain 1024 64 16 from rfl,
    StackMember.dotGeneral_plain_apply]
  show _ = Cert.GnnSpec.head _ _ _ _ g j
  unfold Cert.GnnSpec.head
  refine Finset.sum_congr rfl fun k2 _ => ?_
  refine congrArg (· * Wc (ix2 k2 j)) ?_
  rw [show dot_S1024x128_S128x64_S1024x64_1_0_0_1_n_n = DotDims.plain 1024 128 64 from rfl,
    StackMember.dotGeneral_plain_apply]
  refine Finset.sum_congr rfl fun k1 _ => ?_
  refine congrArg (· * Wl (ix2 k1 k2)) ?_
  exact pooled_apply A2 i7 g k1

end Cert.ReferenceIdeal.RefRead

end
-- ==== Proof.Bridge.lean ====
/-
  Both programs compute one function of the arguments.

  The kernel program's result is what its second region leaves: the specification's head of the second aggregate, where the
  second aggregate is the host's aggregation over the edges of what the first region leaves, the specification's dense chain of
  the first aggregate. The reference's result is its own head of its own second aggregation of its own dense chain. The two
  heads and the two dense chains are the specification's (the regions' value legs on one side, the entry-by-entry reading of the
  reference's operations on the other), and the sparse host parts — degree factors, the gather along the edges' sources, the
  weighting and the scatter-add into the edges' destinations — are literally the same operations in both programs.
-/
import proofs.«179570_j8117488190078_2_alg».proof.Proof.KHost
import proofs.«179570_j8117488190078_2_alg».proof.Proof.Region0
import proofs.«179570_j8117488190078_2_alg».proof.Proof.Region1
import proofs.«179570_j8117488190078_2_alg».proof.Proof.RefMid
import proofs.«179570_j8117488190078_2_alg».proof.Proof.RefTail

set_option maxRecDepth 16384

noncomputable section

namespace Cert.Bridge

open Idealize.ShloMosaic Idealize.ShloMosaic.TcCoe Idealize.SL.Sem Idealize.ShloMosaic.ValueIdx
open Cert.GnnSpec

/-- The common result: the head of the aggregate of the dense chain of the first aggregate, the sparse parts spelt with the
    kernel program's host operations. -/
def result (a0 : FVec Ideal Cert.KernelIdeal.S131072x64 .f32) (a1 : FVec Ideal Cert.KernelIdeal.S1048576 .f32)
    (a2 : FVec Ideal Cert.KernelIdeal.S64x256 .f32) (a3 : FVec Ideal Cert.KernelIdeal.S256x128 .f32)
    (a4 : FVec Ideal Cert.KernelIdeal.S128x64 .f32) (a5 : FVec Ideal Cert.KernelIdeal.S64x16 .f32)
    (a6 a7 : IVec Cert.KernelIdeal.S1048576 32) : FVec Ideal Cert.KernelIdeal.S1024x16 .f32 :=
  headArr
    (Cert.KernelIdeal.KHost.agg128
      (denseArr (Cert.KernelIdeal.KHost.agg1 a0 a1 a6 a7) (colArr (Cert.KernelIdeal.KHost.inv (F := Ideal) a7))
        (colArr (Cert.KernelIdeal.KHost.inv (F := Ideal) a6)) a2 a3) a6 a7 a1)
    (colArr (Cert.KernelIdeal.KHost.inv (F := Ideal) a7)) a4 a5

/-! ## The kernel program -/

section Kernel
open Cert.KernelIdeal Cert.KernelIdeal.Gen Cert.KernelIdeal.KHost Cert.KernelIdeal.KValue

/-- A per-node vector reshaped to one column reads, at row `n`, entry `n`. -/
theorem colv_eq (v : FVec Ideal S131072 .f32) : colv v = colArr v := by
  funext i
  obtain ⟨n, z, rfl⟩ : ∃ (n : Fin 131072) (z : Fin 1), i = ix2 n z := ⟨i 0, i 1, eq_ix2 i⟩
  unfold colv
  rw [shapeCast_apply v _ (ix2 n z) (ix1 n) (by
    rw [Shape.rowMajor_val_one, Shape.rowMajor_val_two]
    show n.val = n.val * 1 + z.val
    have := z.isLt; omega)]
  rfl

variable (m : (ℓ : Loc nD τ sig) → Buf (Elt Ideal) ℓ) (ρ : Dev nD → PrngReg)

/-- What the first region leaves in its result array. -/
theorem region0_out (c : Dev nD) :
    W6 m ρ c (Proc.devRef .tc main_v31)
      = denseArr (agg1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (colArr (inv (F := Ideal) (m ((c.tc : Thread Cert.KernelIdeal.nD Cert.KernelIdeal.τ).loc Cert.KernelIdeal.main_arg7)))) (colArr (inv (F := Ideal) (m ((c.tc : Thread Cert.KernelIdeal.nD Cert.KernelIdeal.τ).loc Cert.KernelIdeal.main_arg6)))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine (W6_arr m ρ c 5).trans ((arr0 (V5 m ρ) c).trans ?_)
  rw [V5_v28, V5_v29, V5_v30, V5_arg2, V5_arg3, colv_eq, colv_eq]

/-- The kernel program's result buffer at the last boundary is the common result of the arguments. -/
theorem kernel_out (c : Dev nD) :
    W8 m ρ c (Proc.devRef .tc main_v46)
      = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  refine (W8_arr m ρ c 4).trans ((arr1 (V7 m ρ) c).trans ?_)
  rw [V7_v44, V7_v45, V7_arg4, V7_arg5, region0_out, colv_eq]
  rfl

end Kernel

/-! ## The reference -/

section Reference
open Cert.ReferenceIdeal Cert.ReferenceIdeal.Gen Cert.ReferenceIdeal.RefVal Cert.ReferenceIdeal.RefRead

/-- The sparse host parts are the same operations in both programs. -/
theorem agg1_same (a0 : FVec Ideal S131072x64 .f32) (a1 : FVec Ideal S1048576 .f32) (a6 a7 : IVec S1048576 32) :
    RefVal.agg1 a0 a1 a6 a7 = Cert.KernelIdeal.KHost.agg1 a0 a1 a6 a7 := rfl
theorem inv_same (a : IVec S1048576 32) : RefVal.inv (F := Ideal) a = Cert.KernelIdeal.KHost.inv (F := Ideal) a := rfl
theorem agg128_same (x : FVec Ideal S131072x128 .f32) (a1 : FVec Ideal S1048576 .f32) (a6 a7 : IVec S1048576 32) :
    RefVal.agg128 x a6 a7 a1 = Cert.KernelIdeal.KHost.agg128 x a6 a7 a1 := rfl

/-- The reference's result is the common result of the arguments. -/
theorem ref_out (a0 : FVec Ideal S131072x64 .f32) (a1 : FVec Ideal S1048576 .f32) (a2 : FVec Ideal S64x256 .f32)
    (a3 : FVec Ideal S256x128 .f32) (a4 : FVec Ideal S128x64 .f32) (a5 : FVec Ideal S64x16 .f32) (a6 a7 : IVec S1048576 32) :
    RefVal.out a0 a1 a2 a3 a4 a5 a6 a7 = result a0 a1 a2 a3 a4 a5 a6 a7 := by
  unfold RefVal.out result
  rw [tail_eq, mid_eq, agg1_same, inv_same, inv_same, agg128_same]

/-- The reference's fold over its launch memory, read at the result buffer, is the common result of its arguments. -/
theorem ref_fold (m' : (ℓ : Loc nD τ sig) → Buf (Elt Ideal) ℓ) (c : Dev nD) :
    StableHlo.after (Cert.ReferenceIdeal.RefRun.ops0 ++ Cert.ReferenceIdeal.RefRun.ops1) (StableHlo.launchContents m' c)
        (Proc.devRef .tc main_v84)
      = result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) :=
  (RefVal.out_eq _).trans (ref_out _ _ _ _ _ _ _ _)

end Reference

end Cert.Bridge

end
-- ==== Proof.lean ====
/-
  A two-layer graph convolution with a pooled classifier head, as two fused kernels, against its plain reference: the claim's proof.

  Both programs compute, from the node features `x`, the edge weights `w`, the edges' sources and destinations and four weight
  matrices, the same thing. With `d_out`, `d_in` the clamped out- and in-degrees of the nodes,
    A₁ = Σ over edges e into a node of w(e) · (x · d_out^(-1/2))[source of e]          (first aggregate)
    B  = (leaky((A₁ · d_in^(-1/2)) W₁) · d_out^(-1/2)) W₂                               (dense chain)
    A₂ = Σ over edges e into a node of w(e) · B[source of e]                            (second aggregate)
    out[g] = ((2⁻⁷ · Σ over the 128 nodes n of graph g of leaky(A₂[n] · d_in(n)^(-1/2))) W_lin) W_cls.
  The degrees, the gathers and the scatter-adds are the same host operations in both programs. The kernel program computes `B`
  in a kernel over blocks of 2048 rows and `out` in a kernel over blocks of 32 graphs, where the reference uses whole-array matrix
  products and, for the sum over a graph's nodes, a scatter-add along the node index divided by 128 followed by a division by 128.
  On the extended reals a change of number format is the identity, a product accumulated from zero is the plain sum of products,
  finite sums may be taken in any order and over any tiling of the rows, and dividing by 128 is multiplying by 2⁻⁷; nothing else
  is needed, so the precondition is never opened.

  The three frame claims are the programs' runs with the results dropped, the idealization rewrote nothing, and the value claim
  states both runs with the same result: `Cert.Bridge.result` of the arguments.
-/
import proofs.«179570_j8117488190078_2_alg».proof.Defs
import proofs.«179570_j8117488190078_2_alg».proof.Proof.Gen.Kernel
import proofs.«179570_j8117488190078_2_alg».proof.Proof.Gen.Kernel.Skeleton
import proofs.«179570_j8117488190078_2_alg».proof.Proof.Gen.Kernel.Launch
import proofs.«179570_j8117488190078_2_alg».proof.Proof.Gen.Kernel.Points
import proofs.«179570_j8117488190078_2_alg».proof.Proof.Gen.Kernel.Frame
import proofs.«179570_j8117488190078_2_alg».proof.Proof.Gen.KernelIdeal
import proofs.«179570_j8117488190078_2_alg».proof.Proof.Gen.KernelIdeal.Skeleton
import proofs.«179570_j8117488190078_2_alg».proof.Proof.Gen.KernelIdeal.Launch
import proofs.«179570_j8117488190078_2_alg».proof.Proof.Gen.KernelIdeal.Points
import proofs.«179570_j8117488190078_2_alg».proof.Proof.Gen.KernelIdeal.Frame
import proofs.«179570_j8117488190078_2_alg».proof.Proof.Gen.ReferenceIdeal
import proofs.«179570_j8117488190078_2_alg».proof.Proof.Gen.Pre_finite_inputs
import proofs.«179570_j8117488190078_2_alg».proof.Proof.RunOut
import proofs.«179570_j8117488190078_2_alg».proof.Proof.RefRun
import proofs.«179570_j8117488190078_2_alg».proof.Proof.RefVal
import proofs.«179570_j8117488190078_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, its arguments unchanged. -/
theorem frame_k : Cert.frame_Kernel := fun m ρ _ => Cert.Kernel.Gen.frame m ρ

/-- The idealized kernel program runs, its arguments unchanged. -/
theorem frame_ki : Cert.frame_KernelIdeal := fun m ρ _ => Cert.KernelIdeal.Gen.frame m ρ

/-- The reference runs, its arguments unchanged: its run with every buffer named, read at the arguments. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefVal.main_arg0_eq _),
     (h c Cert.ReferenceIdeal.main_arg1).trans (Cert.ReferenceIdeal.RefVal.main_arg1_eq _),
     (h c Cert.ReferenceIdeal.main_arg2).trans (Cert.ReferenceIdeal.RefVal.main_arg2_eq _),
     (h c Cert.ReferenceIdeal.main_arg3).trans (Cert.ReferenceIdeal.RefVal.main_arg3_eq _),
     (h c Cert.ReferenceIdeal.main_arg4).trans (Cert.ReferenceIdeal.RefVal.main_arg4_eq _),
     (h c Cert.ReferenceIdeal.main_arg5).trans (Cert.ReferenceIdeal.RefVal.main_arg5_eq _),
     (h c Cert.ReferenceIdeal.main_arg6).trans (Cert.ReferenceIdeal.RefVal.main_arg6_eq _),
     (h c Cert.ReferenceIdeal.main_arg7).trans (Cert.ReferenceIdeal.RefVal.main_arg7_eq _)⟩)
    (Cert.ReferenceIdeal.RefRun.run_main (F := Ideal) m ρ)

/-- The idealization rewrote no operation. -/
theorem preserves : Cert.preserves_Kernel_KernelIdeal := trivial

/-- From memories that agree on the arguments both idealized programs run and end with the same result: the common function of
    the arguments. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Bridge.kernel_out m ρ c), (h c).2⟩)
      (Cert.KernelIdeal.KRun.run_out (F := Ideal) m ρ)
  · refine (θ_run Cert.ReferenceIdeal.defs _ _).mono (fun _ h c =>
      ⟨?_,
       (h c Cert.ReferenceIdeal.main_arg0).trans (Cert.ReferenceIdeal.RefVal.main_arg0_eq _),
       (h c Cert.ReferenceIdeal.main_arg1).trans (Cert.ReferenceIdeal.RefVal.main_arg1_eq _),
       (h c Cert.ReferenceIdeal.main_arg2).trans (Cert.ReferenceIdeal.RefVal.main_arg2_eq _),
       (h c Cert.ReferenceIdeal.main_arg3).trans (Cert.ReferenceIdeal.RefVal.main_arg3_eq _),
       (h c Cert.ReferenceIdeal.main_arg4).trans (Cert.ReferenceIdeal.RefVal.main_arg4_eq _),
       (h c Cert.ReferenceIdeal.main_arg5).trans (Cert.ReferenceIdeal.RefVal.main_arg5_eq _),
       (h c Cert.ReferenceIdeal.main_arg6).trans (Cert.ReferenceIdeal.RefVal.main_arg6_eq _),
       (h c Cert.ReferenceIdeal.main_arg7).trans (Cert.ReferenceIdeal.RefVal.main_arg7_eq _)⟩)
      (Cert.ReferenceIdeal.RefRun.run_main (F := Ideal) m' ρ')
    refine (h c Cert.ReferenceIdeal.main_v84).trans ((Cert.Bridge.ref_fold m' c).trans ?_)
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
